-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x100 : Shape := ⟨3, ![256, 4096, 100]⟩
abbrev S2x4096x50 : Shape := ⟨3, ![2, 4096, 50]⟩
abbrev S100x100 : Shape := ⟨2, ![100, 100]⟩
abbrev S1x100 : Shape := ⟨2, ![1, 100]⟩
abbrev S100x1 : Shape := ⟨2, ![100, 1]⟩
abbrev S_ : Shape := ⟨0, ![]⟩

class Facts : Prop where
  bcast_S_S256x4096x100 : S_.BroadcastsInDim S256x4096x100 (![] : Fin 0 → Fin S256x4096x100.rank)
  reducesTo_S256x4096x100_S_d0_1_2 : S256x4096x100.ReducesTo [0, 1, 2] S_
  h_S_ : 0 < S_.numel
  bcast_S_S2x4096x50 : S_.BroadcastsInDim S2x4096x50 (![] : Fin 0 → Fin S2x4096x50.rank)
  reducesTo_S2x4096x50_S_d0_1_2 : S2x4096x50.ReducesTo [0, 1, 2] S_
  bcast_S_S100x100 : S_.BroadcastsInDim S100x100 (![] : Fin 0 → Fin S100x100.rank)
  reducesTo_S100x100_S_d0_1 : S100x100.ReducesTo [0, 1] S_
  bcast_S_S1x100 : S_.BroadcastsInDim S1x100 (![] : Fin 0 → Fin S1x100.rank)
  reducesTo_S1x100_S_d0_1 : S1x100.ReducesTo [0, 1] S_
  bcast_S_S100x1 : S_.BroadcastsInDim S100x1 (![] : Fin 0 → Fin S100x1.rank)
  reducesTo_S100x1_S_d0_1 : S100x1.ReducesTo [0, 1] S_

variable [Facts]

def fn_part1 {F : FTy → Type} [FloatOps F] (main_arg4 : FVec F S100x1 .f32) (main_v13 : IVec S_ 1) (main_v16 : IVec S1x100 1) : IVec S_ 1 :=
  let main_c_5 : IVec S_ 1 := constantI S_ 1 1#1
  let main_v17 : IVec S_ 1 := (fun x v => Host.reduce IntOp.andi x v reducesTo_S1x100_S_d0_1 h_S_) main_v16 main_c_5
  let main_v18 : IVec S_ 1 := andi main_v13 main_v17
  let main_v19 : FVec F S100x1 .f32 := Host.absf main_arg4
  let main_cst_6 : FVec F S_ .f32 := constant S_ .f32 0x7F800000#32
  let main_v20 : FVec F S100x1 .f32 := broadcastInDim S100x1 ![] bcast_S_S100x1 main_cst_6
  let main_v21 : IVec S100x1 1 := cmpf .olt main_v19 main_v20
  let main_c_7 : IVec S_ 1 := constantI S_ 1 1#1
  let main_v22 : IVec S_ 1 := (fun x v => Host.reduce IntOp.andi x v reducesTo_S100x1_S_d0_1 h_S_) main_v21 main_c_7
  let main_v23 : IVec S_ 1 := andi main_v18 main_v22
  main_v23

def fn {F : FTy → Type} [FloatOps F] (main_arg0 : FVec F S256x4096x100 .f32) (main_arg1 : FVec F S2x4096x50 .f32) (main_arg2 : FVec F S100x100 .f32) (main_arg3 : FVec F S1x100 .f32) (main_arg4 : FVec F S100x1 .f32) : IVec S_ 1 :=
  let main_v0 : FVec F S256x4096x100 .f32 := Host.absf main_arg0
  let main_cst : FVec F S_ .f32 := constant S_ .f32 0x7F800000#32
  let main_v1 : FVec F S256x4096x100 .f32 := broadcastInDim S256x4096x100 ![] bcast_S_S256x4096x100 main_cst
  let main_v2 : IVec S256x4096x100 1 := cmpf .olt main_v0 main_v1
  let main_c : IVec S_ 1 := constantI S_ 1 1#1
  let main_v3 : IVec S_ 1 := (fun x v => Host.reduce IntOp.andi x v reducesTo_S256x4096x100_S_d0_1_2 h_S_) main_v2 main_c
  let main_v4 : FVec F S2x4096x50 .f32 := Host.absf main_arg1
  let main_cst_0 : FVec F S_ .f32 := constant S_ .f32 0x7F800000#32
  let main_v5 : FVec F S2x4096x50 .f32 := broadcastInDim S2x4096x50 ![] bcast_S_S2x4096x50 main_cst_0
  let main_v6 : IVec S2x4096x50 1 := cmpf .olt main_v4 main_v5
  let main_c_1 : IVec S_ 1 := constantI S_ 1 1#1
  let main_v7 : IVec S_ 1 := (fun x v => Host.reduce IntOp.andi x v reducesTo_S2x4096x50_S_d0_1_2 h_S_) main_v6 main_c_1
  let main_v8 : IVec S_ 1 := andi main_v3 main_v7
  let main_v9 : FVec F S100x100 .f32 := Host.absf main_arg2
  let main_cst_2 : FVec F S_ .f32 := constant S_ .f32 0x7F800000#32
  let main_v10 : FVec F S100x100 .f32 := broadcastInDim S100x100 ![] bcast_S_S100x100 main_cst_2
  let main_v11 : IVec S100x100 1 := cmpf .olt main_v9 main_v10
  let main_c_3 : IVec S_ 1 := constantI S_ 1 1#1
  let main_v12 : IVec S_ 1 := (fun x v => Host.reduce IntOp.andi x v reducesTo_S100x100_S_d0_1 h_S_) main_v11 main_c_3
  let main_v13 : IVec S_ 1 := andi main_v8 main_v12
  let main_v14 : FVec F S1x100 .f32 := Host.absf main_arg3
  let main_cst_4 : FVec F S_ .f32 := constant S_ .f32 0x7F800000#32
  let main_v15 : FVec F S1x100 .f32 := broadcastInDim S1x100 ![] bcast_S_S1x100 main_cst_4
  let main_v16 : IVec S1x100 1 := cmpf .olt main_v14 main_v15
  fn_part1 (F := F) main_arg4 main_v13 main_v16
-- ==== Kernel.lean ====
abbrev S256x4096x100 : Shape := ⟨3, ![256, 4096, 100]⟩
abbrev S2x4096x50 : Shape := ⟨3, ![2, 4096, 50]⟩
abbrev S100x100 : Shape := ⟨2, ![100, 100]⟩
abbrev S1x100 : Shape := ⟨2, ![1, 100]⟩
abbrev S100x1 : Shape := ⟨2, ![100, 1]⟩
abbrev S1x4096x100 : Shape := ⟨3, ![1, 4096, 100]⟩
abbrev S64x256x100 : Shape := ⟨3, ![64, 256, 100]⟩
abbrev S1x256x100 : Shape := ⟨3, ![1, 256, 100]⟩
abbrev S256x1 : Shape := ⟨2, ![256, 1]⟩
abbrev S256x100 : Shape := ⟨2, ![256, 100]⟩
abbrev S1x1x100 : Shape := ⟨3, ![1, 1, 100]⟩
abbrev S16x256x100 : Shape := ⟨3, ![16, 256, 100]⟩
abbrev S4096x100 : Shape := ⟨2, ![4096, 100]⟩
abbrev S16x256 : Shape := ⟨2, ![16, 256]⟩
abbrev S16x256x1 : Shape := ⟨3, ![16, 256, 1]⟩
abbrev S1x256x1 : Shape := ⟨3, ![1, 256, 1]⟩

abbrev nBuf : Space → Nat
  | .hbm => 8
  | .vmem => 10
  | .smem => 0
  | _ => 0

abbrev bufTy : (tb : Table) → Fin (tcTables nBuf tb) → BufTy
  | .hbm, ⟨0, _⟩ => ⟨S256x4096x100, .f32⟩
  | .hbm, ⟨1, _⟩ => ⟨S2x4096x50, .f32⟩
  | .hbm, ⟨2, _⟩ => ⟨S100x100, .f32⟩
  | .hbm, ⟨3, _⟩ => ⟨S1x100, .f32⟩
  | .hbm, ⟨4, _⟩ => ⟨S100x1, .f32⟩
  | .hbm, ⟨5, _⟩ => ⟨S100x100, .bf16⟩
  | .hbm, ⟨6, _⟩ => ⟨S1x100, .f32⟩
  | .hbm, ⟨7, _⟩ => ⟨S1x4096x100, .f32⟩
  | .local _ .vmem, ⟨0, _⟩ => ⟨S64x256x100, .f32⟩
  | .local _ .vmem, ⟨1, _⟩ => ⟨S64x256x100, .f32⟩
  | .local _ .vmem, ⟨2, _⟩ => ⟨S100x100, .bf16⟩
  | .local _ .vmem, ⟨3, _⟩ => ⟨S1x100, .f32⟩
  | .local _ .vmem, ⟨4, _⟩ => ⟨S1x100, .f32⟩
  | .local _ .vmem, ⟨5, _⟩ => ⟨S1x256x100, .f32⟩
  | .local _ .vmem, ⟨6, _⟩ => ⟨S1x256x100, .f32⟩
  | .local _ .vmem, ⟨7, _⟩ => ⟨S256x1, .f32⟩
  | .local _ .vmem, ⟨8, _⟩ => ⟨S256x1, .f32⟩
  | .local _ .vmem, ⟨9, _⟩ => ⟨S256x100, .f32⟩
  | _, _ => ⟨S256x4096x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_off1 (c0_i32_6 : BitVec 32) : Fin 3 → Nat :=
  let c16_i32 : BitVec 32 := 16#32
  let v9 : BitVec 32 := Scalar.muli c0_i32_6 c16_i32
  let v10 : Index := Scalar.indexCast v9
  let c0_7 : Index := 0#32
  let c0_8 : Index := 0#32
  ![v10.toNat, 0, 0]
def k0_cond2 (i : grid0.Coords) : BitVec 1 :=
  let arg1 : BitVec 32 := BitVec.ofNat 32 (i 1).val
  let c3_i32_85 : BitVec 32 := 3#32
  let v185 : BitVec 1 := Scalar.cmpi .eq arg1 c3_i32_85
  let v186 : BitVec 32 := Scalar.extui v185
  let c0_i32_86 : BitVec 32 := 0#32
  let v187 : BitVec 1 := Scalar.cmpi .ne v186 c0_i32_86
  v187

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S100x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S100x1_S1x100 : S100x1.ShapeCasts S1x100
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x100_S256x100_0_0 : ∀ a, (![0, 0] : Fin 2 → Nat) a + S256x100.size a ≤ S256x100.size a
  h_S256x100 : 0 < S256x100.numel
  shapeCasts_S256x100_S256x100 : S256x100.ShapeCasts S256x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  shapeCasts_S1x100_S1x1x100 : S1x100.ShapeCasts S1x1x100
  h_S16x256x100 : 0 < S16x256x100.numel
  shapeCasts_S16x256x100_S4096x100 : S16x256x100.ShapeCasts S4096x100
  broadcasts_S1x100_S4096x100 : S1x100.Broadcasts S4096x100
  shapeCasts_S4096x100_S16x256x100 : S4096x100.ShapeCasts S16x256x100
  broadcasts_S1x1x100_S16x256x100 : S1x1x100.Broadcasts S16x256x100
  reduces_S16x256x100_S16x256 : S16x256x100.Reduces [2] S16x256
  shapeCasts_S16x256_S16x256x1 : S16x256.ShapeCasts S16x256x1
  reduces_S16x256x1_S256x1 : S16x256x1.Reduces [0] S256x1
  shapeCasts_S256x1_S1x256x1 : S256x1.ShapeCasts S1x256x1
  broadcasts_S1x256x1_S16x256x1 : S1x256x1.Broadcasts S16x256x1
  broadcasts_S16x256x1_S16x256x100 : S16x256x1.Broadcasts S16x256x100
  reduces_S16x256x100_S256x100 : S16x256x100.Reduces [0] S256x100
  broadcasts_S256x1_S256x100 : S256x1.Broadcasts S256x100
  shapeCasts_S256x100_S1x256x100 : S256x100.ShapeCasts S1x256x100
  inb_S1x256x100_S1x256x100_0_0_0 : ∀ a, (![0, 0, 0] : Fin 3 → Nat) a + S1x256x100.size a ≤ S1x256x100.size a
  h_S1x256x100 : 0 < S1x256x100.numel
  dot_S4096x100_S100x100_S4096x100_1_0_0_1_n_n_wf : DotDims.WF S4096x100 S100x100 S4096x100 [1] [0] [0] [1] [] []
  hrank0 : 0 < grid0.rank
  k0_off1_inb : ∀ (r : Fin 4), ∀ a, (k0_off1 (BitVec.ofNat 32 r.val)) a + S16x256x100.size a ≤ S64x256x100.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x100.size a ≤ S256x4096x100.size a
  hwx0_0 : ∀ i : grid0.Coords, EltTy.bits .f32 = 32 ∨ (Rect.block (s := S256x4096x100) S64x256x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .bf16 = 32 ∨ (Rect.block (s := S100x100) S100x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x100.size a ≤ S1x4096x100.size a
  hwx0_4 : ∀ i : grid0.Coords, EltTy.bits .f32 = 32 ∨ (Rect.block (s := S1x4096x100) S1x256x100.size (cc0_transform_4 i) (hinb0_4 i)).WholeWords (EltTy.packing .f32)

variable [Facts₀]

def dot_S4096x100_S100x100_S4096x100_1_0_0_1_n_n : DotDims S4096x100 S100x100 S4096x100 where
  lhsContracting := [1]
  rhsContracting := [0]
  lhsNonContracting := [0]
  rhsNonContracting := [1]
  lhsBatch := []
  rhsBatch := []
  wf := dot_S4096x100_S100x100_S4096x100_1_0_0_1_n_n_wf

abbrev win0_0 : Pipeline.Window sig grid0 :=
  Pipeline.Window.ofSpec (Memref.whole main_arg0) S64x256x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x4096x100 : Shape := ⟨3, ![256, 4096, 100]⟩
abbrev S2x4096x50 : Shape := ⟨3, ![2, 4096, 50]⟩
abbrev S100x100 : Shape := ⟨2, ![100, 100]⟩
abbrev S1x100 : Shape := ⟨2, ![1, 100]⟩
abbrev S100x1 : Shape := ⟨2, ![100, 1]⟩
abbrev S1x1x100 : Shape := ⟨3, ![1, 1, 100]⟩
abbrev S256x4096x1 : Shape := ⟨3, ![256, 4096, 1]⟩
abbrev S256x4096 : Shape := ⟨2, ![256, 4096]⟩
abbrev S_ : Shape := ⟨0, ![]⟩
abbrev S4096 : Shape := ⟨1, ![4096]⟩
abbrev S1x4096 : Shape := ⟨2, ![1, 4096]⟩
abbrev S4096x100 : Shape := ⟨2, ![4096, 100]⟩
abbrev S1x4096x100 : Shape := ⟨3, ![1, 4096, 100]⟩

abbrev nBuf : Space → Nat
  | .hbm => 33
  | .vmem => 0
  | .smem => 0
  | _ => 0

abbrev bufTy : (tb : Table) → Fin (tcTables nBuf tb) → BufTy
  | .hbm, ⟨0, _⟩ => ⟨S256x4096x100, .f32⟩
  | .hbm, ⟨1, _⟩ => ⟨S2x4096x50, .f32⟩
  | .hbm, ⟨2, _⟩ => ⟨S100x100, .f32⟩
  | .hbm, ⟨3, _⟩ => ⟨S1x100, .f32⟩
  | .hbm, ⟨4, _⟩ => ⟨S100x1, .f32⟩
  | .hbm, ⟨5, _⟩ => ⟨S256x4096x100, .f32⟩
  | .hbm, ⟨6, _⟩ => ⟨S1x1x100, .f32⟩
  | .hbm, ⟨7, _⟩ => ⟨S256x4096x100, .f32⟩
  | .hbm, ⟨8, _⟩ => ⟨S256x4096x100, .f32⟩
  | .hbm, ⟨9, _⟩ => ⟨S256x4096x100, .f32⟩
  | .hbm, ⟨10, _⟩ => ⟨S256x4096x1, .f32⟩
  | .hbm, ⟨11, _⟩ => ⟨S256x4096x1, .f32⟩
  | .hbm, ⟨12, _⟩ => ⟨S256x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S256x4096, .f32⟩
  | .hbm, ⟨20, _⟩ => ⟨S256x4096, .f32⟩
  | .hbm, ⟨21, _⟩ => ⟨S256x4096, .f32⟩
  | .hbm, ⟨22, _⟩ => ⟨S_, .f32⟩
  | .hbm, ⟨23, _⟩ => ⟨S4096, .f32⟩
  | .hbm, ⟨24, _⟩ => ⟨S1x4096, .f32⟩
  | .hbm, ⟨25, _⟩ => ⟨S256x4096, .f32⟩
  | .hbm, ⟨26, _⟩ => ⟨S256x4096, .f32⟩
  | .hbm, ⟨27, _⟩ => ⟨S256x4096x1, .f32⟩
  | .hbm, ⟨28, _⟩ => ⟨S256x4096x100, .f32⟩
  | .hbm, ⟨29, _⟩ => ⟨S256x4096x100, .f32⟩
  | .hbm, ⟨30, _⟩ => ⟨S_, .f32⟩
  | .hbm, ⟨31, _⟩ => ⟨S4096x100, .f32⟩
  | .hbm, ⟨32, _⟩ => ⟨S1x4096x100, .f32⟩
  | _, _ => ⟨S256x4096x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S1x100_S1x1x100_1_2 : S1x100.BroadcastsInDim S1x1x100 (![1, 2] : Fin 2 → Fin S1x1x100.rank)
  bcast_S1x1x100_S256x4096x100_0_1_2 : S1x1x100.BroadcastsInDim S256x4096x100 (![0, 1, 2] : Fin 3 → Fin S256x4096x100.rank)
  shapeCasts_S256x4096x1_S256x4096 : S256x4096x1.ShapeCasts S256x4096
  reducesTo_S256x4096_S4096_d0 : S256x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S256x4096_S256x4096x1_0_1 : S256x4096.BroadcastsInDim S256x4096x1 (![0, 1] : Fin 2 → Fin S256x4096x1.rank)
  bcast_S256x4096x1_S256x4096x100_0_1_2 : S256x4096x1.BroadcastsInDim S256x4096x100 (![0, 1, 2] : Fin 3 → Fin S256x4096x100.rank)
  reducesTo_S256x4096x100_S4096x100_d0 : S256x4096x100.ReducesTo [0] S4096x100
  bcast_S4096x100_S1x4096x100_1_2 : S4096x100.BroadcastsInDim S1x4096x100 (![1, 2] : Fin 2 → Fin S1x4096x100.rank)
  dot_S256x4096x100_S100x100_S256x4096x100_2_0_01_1_n_n_wf : DotDims.WF S256x4096x100 S100x100 S256x4096x100 [2] [0] [0, 1] [1] [] []
  dot_S256x4096x100_S100x1_S256x4096x1_2_0_01_1_n_n_wf : DotDims.WF S256x4096x100 S100x1 S256x4096x1 [2] [0] [0, 1] [1] [] []

variable [Facts₀]

def dot_S256x4096x100_S100x100_S256x4096x100_2_0_01_1_n_n : DotDims S256x4096x100 S100x100 S256x4096x100 where
  lhsContracting := [2]
  rhsContracting := [0]
  lhsNonContracting := [0, 1]
  rhsNonContracting := [1]
  lhsBatch := []
  rhsBatch := []
  wf := dot_S256x4096x100_S100x100_S256x4096x100_2_0_01_1_n_n_wf
def dot_S256x4096x100_S100x1_S256x4096x1_2_0_01_1_n_n : DotDims S256x4096x100 S100x1 S256x4096x1 where
  lhsContracting := [2]
  rhsContracting := [0]
  lhsNonContracting := [0, 1]
  rhsNonContracting := [1]
  lhsBatch := []
  rhsBatch := []
  wf := dot_S256x4096x100_S100x1_S256x4096x1_2_0_01_1_n_n_wf

class Facts : Prop extends Facts₀ where

variable [Facts]
-- ==== Proof.Steps.lean ====
/-
  The kernel body's four sub-steps, named.

  At every grid point the body walks its 64 resident sequence positions in four chunks of sixteen. Each chunk reads the
  running maximum `m`, the normalizer `l` and the weighted accumulator `a` and leaves new ones; the printed body spells the
  four chunks as four different groupings of the same operations, named here `m1 … m4`, `l1 … l4`, `a1 … a4` (at any float
  instance). At the ideal instance each of them is, entry by entry, ONE chunk step (`mNew`, `lNew`, `aNew` below):
  with the chunk's scores `σ(r,p)` (`cscore`), `m' = max m (maxᵣ σ(r,p))`, `l' = e^{m - m'} · l + ∑ᵣ e^{σ(r,p) - m'}` and
  `a' = e^{m - m'} · a + ∑ᵣ e^{σ(r,p) - m'} · f(r,p,q)`.
-/
import proofs.«108198_j24017457119662_2_alg».proof.Proof.Gen.KernelIdeal.Skeleton
import Idealize.ShloMosaic.PureOps.Ideal
import Idealize.ShloMosaic.Lib.ValueIdx

noncomputable section

namespace Cert.KernelIdeal.Steps

open Cert.KernelIdeal Cert.KernelIdeal.Gen Idealize.ShloMosaic Idealize.ShloMosaic.ValueIdx

section AnyF
variable {F : FTy → Type} [FloatOps F]
variable (x1 : Vec F S100x100 .bf16) (x2 x3 : Vec F S1x100 .f32) (b : Vec F S16x256x100 .f32)
  (m l : Vec F S256x1 .f32) (a : Vec F S256x100 .f32)

/-- First chunk. -/
def m1 : Vec F S256x1 .f32 := k0_pay14 (k0_pay8 x1 x2 x3 b m)
def l1 : Vec F S256x1 .f32 := k0_pay12 (k0_pay11 x1 x2 x3 b m l)
def a1 : Vec F S256x100 .f32 := k0_pay13 b (k0_pay9 x1 x2 x3 b m) (k0_pay10 x1 x2 x3 b m) a
/-- Second chunk. -/
def m2 : Vec F S256x1 .f32 := k0_pay22 (k0_pay16 (k0_pay5 x1) x2 (k0_pay6 x3) b m)
def l2 : Vec F S256x1 .f32 := k0_pay20 (k0_pay17 (k0_pay5 x1) x2 (k0_pay6 x3) b m) (k0_pay18 (k0_pay5 x1) x2 (k0_pay6 x3) b m) l
def a2 : Vec F S256x100 .f32 := k0_pay21 b (k0_pay17 (k0_pay5 x1) x2 (k0_pay6 x3) b m) (k0_pay18 (k0_pay5 x1) x2 (k0_pay6 x3) b m) a
/-- Third chunk. -/
def m3 : Vec F S256x1 .f32 := k0_pay29 (k0_pay23 (k0_pay5 x1) x2 (k0_pay6 x3) b) m
def l3 : Vec F S256x1 .f32 := k0_pay27 (k0_pay23 (k0_pay5 x1) x2 (k0_pay6 x3) b) m l
def a3 : Vec F S256x100 .f32 := k0_pay28 b (k0_pay23 (k0_pay5 x1) x2 (k0_pay6 x3) b) m a
/-- Fourth chunk. -/
def m4 : Vec F S256x1 .f32 := k0_pay38 (k0_pay30 (k0_pay5 x1) x2 b) (k0_pay31 (k0_pay6 x3)) m
def l4 : Vec F S256x1 .f32 := k0_pay36 (k0_pay30 (k0_pay5 x1) x2 b) (k0_pay31 (k0_pay6 x3)) m l
def a4 : Vec F S256x100 .f32 := k0_pay37 b (k0_pay30 (k0_pay5 x1) x2 b) (k0_pay31 (k0_pay6 x3)) m a

end AnyF

/-! ## One chunk step at the ideal instance, entry by entry -/

section AtIdeal
variable (w : S100x100.Idx → EReal) (bias c : S1x100.Idx → EReal) (b : S16x256x100.Idx → EReal)
  (m l : S256x1.Idx → EReal) (a : S256x100.Idx → EReal)

/-- The score of chunk position `r`, row `p`. -/
def cscore (r : Fin 16) (p : Fin 256) : EReal :=
  Ideal.tanh (∑ e : Fin 100, Ideal.tanh ((∑ d : Fin 100, b (ix3 r p d) * w (ix2 d e)) + bias (ix2 (0 : Fin 1) e)) * c (ix2 (0 : Fin 1) e))

/-- The new running maximum of row `p`. -/
def mNew (p : Fin 256) : EReal :=
  max (m (ix2 p (0 : Fin 1))) ((Finset.univ : Finset (Fin 16)).fold max (⊥ : EReal) (fun r => cscore w bias c b r p))

/-- The new normalizer of row `p`. -/
def lNew (p : Fin 256) : EReal :=
  Ideal.exp (m (ix2 p (0 : Fin 1)) - mNew w bias c b m p) * l (ix2 p (0 : Fin 1))
    + ∑ r : Fin 16, Ideal.exp (cscore w bias c b r p - mNew w bias c b m p)

/-- The new weighted accumulator at row `p`, feature `q`. -/
def aNew (p : Fin 256) (q : Fin 100) : EReal :=
  Ideal.exp (m (ix2 p (0 : Fin 1)) - mNew w bias c b m p) * a (ix2 p q)
    + ∑ r : Fin 16, Ideal.exp (cscore w bias c b r p - mNew w bias c b m p) * b (ix3 r p q)

end AtIdeal

end Cert.KernelIdeal.Steps

end
-- ==== Proof.Pieces.lean ====
/-
  What one grid point leaves in the three carried buffers.

  Whatever the case — the first point of a batch tile, which first resets the buffers to (-∞, 0, 0); a middle point; or the
  last point, which also divides — the body leaves in the running maximum, the normalizer and the weighted accumulator
  the four chunk steps applied in order to what it found there (`pm`, `pl`, `pa`), chunk `k` being rows 16k … 16k+15 of
  the point's block of features. The last point's output block is the accumulator divided by the normalizer.
-/
import proofs.«108198_j24017457119662_2_alg».proof.Proof.Gen.KernelIdeal.Frame
import proofs.«108198_j24017457119662_2_alg».proof.Proof.Steps
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Steps

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle of what a list of stores left, the LAST of them through that rectangle,
    reads the last store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-! ## The four chunks of a point's block, and the four steps in order -/

theorem chunk_inb (n : Nat) (h : n + 16 ≤ 64) : ∀ a, (![n, 0, 0] : Fin 3 → Nat) a + S16x256x100.size a ≤ S64x256x100.size a := by
  intro a; fin_cases a
  · show n + 16 ≤ 64; exact h
  · show 0 + 256 ≤ 256; omega
  · show 0 + 100 ≤ 100; omega

/-- Chunk `k` of a point's block of features: its rows 16k … 16k+15. -/
def chunk (x0 : Vec F S64x256x100 .f32) (n : Nat) (h : n + 16 ≤ 64) : Vec F S16x256x100 .f32 :=
  View.ld x0 (Rect.unit ![n, 0, 0] S16x256x100.size (chunk_inb n h))

variable (x0 : Vec F S64x256x100 .f32) (x1 : Vec F S100x100 .bf16) (x2 x3 : Vec F S1x100 .f32)

/-- The running maximum after chunks 0, 1, 2 and after all four. -/
def pm1 (m : Vec F S256x1 .f32) : Vec F S256x1 .f32 := m1 x1 x2 x3 (chunk x0 0 (by omega)) m
def pm2 (m : Vec F S256x1 .f32) : Vec F S256x1 .f32 := m2 x1 x2 x3 (chunk x0 16 (by omega)) (pm1 x0 x1 x2 x3 m)
def pm3 (m : Vec F S256x1 .f32) : Vec F S256x1 .f32 := m3 x1 x2 x3 (chunk x0 32 (by omega)) (pm2 x0 x1 x2 x3 m)
def pm (m : Vec F S256x1 .f32) : Vec F S256x1 .f32 := m4 x1 x2 x3 (chunk x0 48 (by omega)) (pm3 x0 x1 x2 x3 m)

/-- The normalizer after all four chunks. -/
def pl (m l : Vec F S256x1 .f32) : Vec F S256x1 .f32 :=
  l4 x1 x2 x3 (chunk x0 48 (by omega)) (pm3 x0 x1 x2 x3 m)
    (l3 x1 x2 x3 (chunk x0 32 (by omega)) (pm2 x0 x1 x2 x3 m)
      (l2 x1 x2 x3 (chunk x0 16 (by omega)) (pm1 x0 x1 x2 x3 m)
        (l1 x1 x2 x3 (chunk x0 0 (by omega)) m l)))

/-- The weighted accumulator after all four chunks. -/
def pa (m : Vec F S256x1 .f32) (a : Vec F S256x100 .f32) : Vec F S256x100 .f32 :=
  a4 x1 x2 x3 (chunk x0 48 (by omega)) (pm3 x0 x1 x2 x3 m)
    (a3 x1 x2 x3 (chunk x0 32 (by omega)) (pm2 x0 x1 x2 x3 m)
      (a2 x1 x2 x3 (chunk x0 16 (by omega)) (pm1 x0 x1 x2 x3 m)
        (a1 x1 x2 x3 (chunk x0 0 (by omega)) m a)))

/-! ## Each case's found pieces, read back -/

variable (c : Dev nD) (i : grid0.Coords) (arg2 : Memref sig .tc .vmem S64x256x100 .f32) (harg2 : arg2.IsWhole) (arg3 : Memref sig .tc .vmem S100x100 .bf16) (harg3 : arg3.IsWhole) (arg4 : Memref sig .tc .vmem S1x100 .f32) (harg4 : arg4.IsWhole) (arg5 : Memref sig .tc .vmem S1x100 .f32) (harg5 : arg5.IsWhole) (arg6 : Memref sig .tc .vmem S1x256x100 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x100 .f32) (harg9 : arg9.IsWhole)
  (xs0 xs1 : Vec F S256x1 .f32) (xs2 : Vec F S256x100 .f32)

/-- A middle point leaves the running maximum at the four steps of what it found. -/
theorem sout_B_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = pm x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- A middle point's normalizer. -/
theorem sout_B_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = pl x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- A middle point's weighted accumulator. -/
theorem sout_B_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2 = pa x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- The last point of a batch tile: the same four steps. -/
theorem sout_C_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = pm x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- The last point's normalizer. -/
theorem sout_C_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = pl x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- The last point's weighted accumulator. -/
theorem sout_C_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2 = pa x0 x1 x2 x3 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- The first point of a batch tile resets the running maximum to -∞ (\`k0_pay2\`) before the four steps. -/
theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = pm x0 x1 x2 x3 k0_pay2 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- The first point's normalizer, from the zero reset (\`k0_pay3\`). -/
theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = pl x0 x1 x2 x3 k0_pay2 k0_pay3 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- The first point's weighted accumulator, from the zero reset (\`k0_pay4\`). -/
theorem sout_A_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = pa x0 x1 x2 x3 k0_pay2 k0_pay4 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

/-- The last point's output block: the accumulator over the normalizer (`k0_pay1`: the quotient, kept as a [1,256,100] block). -/
theorem out_C_4 (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2 = k0_pay1 (pa x0 x1 x2 x3 xs0 xs2) (pl x0 x1 x2 x3 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  rw [View.canon_unit_zero hz3]
  sl_unfold_words
  simp only [View.readAt_eq_ld, harg2.read_unread, harg3.read_unread, harg4.read_unread, harg5.read_unread, harg7.read_unread, harg8.read_unread, harg9.read_unread,
    View.ld_unit_zero (S := S256x1) hz2, View.ld_unit_zero (S := S256x100) hz2, View.ld_unit_zero (S := S100x100) hz2, View.ld_unit_zero (S := S1x100) hz2,
    readCov_cons_unit_zero (S := S256x1) _ hz2, readCov_cons_unit_zero (S := S256x100) _ hz2]
  rfl

end Cert.KernelIdeal.Pieces

end
-- ==== Proof.Spec.lean ====
/-
  The specification: attention pooling over the sequence axis.

  For a sequence position `s`, a batch row `b` and a feature `e`, the hidden unit is
  `h(s,b,e) = tanh (∑_d f(s,b,d) · W(d,e) + bias(e))`, the score `σ(s,b) = tanh (∑_e h(s,b,e) · c(e))` — a hyperbolic
  tangent, hence a real number in [-1, 1] whatever the inputs — and the pooled value is the softmax-weighted average of
  the features over the 256 sequence positions,
  `pooled(b,q) = (∑_s e^{σ(s,b)} · f(s,b,q)) / (∑_s e^{σ(s,b)})`.
  Both programs compute it: one with the softmax in two passes over the whole sequence, the other with a running
  shift over sixteen chunks of sixteen positions.
-/
import Idealize.ShloMosaic.PureOps.Ideal
import Idealize.ShloMosaic.Lib.ValueIdx

noncomputable section

namespace Cert.Pool

open Idealize.ShloMosaic Idealize.ShloMosaic.ValueIdx

/-- The arrays' shapes, literally. -/
abbrev SF : Shape := ⟨3, ![256, 4096, 100]⟩
abbrev SW : Shape := ⟨2, ![100, 100]⟩
abbrev SB : Shape := ⟨2, ![1, 100]⟩
abbrev SC : Shape := ⟨2, ![100, 1]⟩
abbrev SO : Shape := ⟨3, ![1, 4096, 100]⟩

/-- The hyperbolic tangent of any extended real is a real number. -/
theorem tanh_real (x : EReal) : ∃ r : ℝ, Ideal.tanh x = (r : EReal) := by
  induction x using EReal.rec with
  | bot => exact ⟨-1, by rw [Ideal.tanh_bot]; rfl⟩
  | top => exact ⟨1, by rw [Ideal.tanh_top]; rfl⟩
  | coe r => exact ⟨Real.tanh r, Ideal.tanh_coe r⟩

/-- The hidden unit `tanh (∑_d f(s,b,d) · W(d,e) + bias(e))`. -/
def hid (f : SF.Idx → EReal) (W : SW.Idx → EReal) (bias : SB.Idx → EReal) (s : Fin 256) (b : Fin 4096) (e : Fin 100) : EReal :=
  Ideal.tanh ((∑ d : Fin 100, f (ix3 s b d) * W (ix2 d e)) + bias (ix2 (0 : Fin 1) e))

/-- The score `tanh (∑_e h(s,b,e) · c(e))`. -/
def score (f : SF.Idx → EReal) (W : SW.Idx → EReal) (bias : SB.Idx → EReal) (cw : SC.Idx → EReal) (s : Fin 256) (b : Fin 4096) : EReal :=
  Ideal.tanh (∑ e : Fin 100, hid f W bias s b e * cw (ix2 e (0 : Fin 1)))

/-- The score as the real number it is. -/
def scoreR (f : SF.Idx → EReal) (W : SW.Idx → EReal) (bias : SB.Idx → EReal) (cw : SC.Idx → EReal) (s : Fin 256) (b : Fin 4096) : ℝ :=
  (score f W bias cw s b).toReal

theorem score_eq (f : SF.Idx → EReal) (W : SW.Idx → EReal) (bias : SB.Idx → EReal) (cw : SC.Idx → EReal) (s : Fin 256) (b : Fin 4096) :
    score f W bias cw s b = (scoreR f W bias cw s b : EReal) := by
  obtain ⟨r, hr⟩ := tanh_real (∑ e : Fin 100, hid f W bias s b e * cw (ix2 e (0 : Fin 1)))
  unfold scoreR score
  rw [hr, EReal.toReal_coe]

/-- A feature as a real number (the inputs are finite). -/
def feat (f : SF.Idx → EReal) (s : Fin 256) (b : Fin 4096) (q : Fin 100) : ℝ := (f (ix3 s b q)).toReal

theorem feat_eq (f : SF.Idx → EReal) (hf : ∀ i, ∃ r : ℝ, f i = (r : EReal)) (s : Fin 256) (b : Fin 4096) (q : Fin 100) :
    f (ix3 s b q) = (feat f s b q : EReal) := by
  obtain ⟨r, hr⟩ := hf (ix3 s b q)
  unfold feat
  rw [hr, EReal.toReal_coe]

/-- The softmax-weighted average of the features over the sequence. -/
def pooled (f : SF.Idx → EReal) (W : SW.Idx → EReal) (bias : SB.Idx → EReal) (cw : SC.Idx → EReal) (b : Fin 4096) (q : Fin 100) : ℝ :=
  (∑ s : Fin 256, Real.exp (scoreR f W bias cw s b) * feat f s b q) / (∑ s : Fin 256, Real.exp (scoreR f W bias cw s b))

/-- THE RESULT ARRAY, as one function of the argument arrays. -/
def G (f : SF.Idx → EReal) (W : SW.Idx → EReal) (bias : SB.Idx → EReal) (cw : SC.Idx → EReal) : SO.Idx → EReal :=
  fun j => (pooled f W bias cw (j 1) (j 2) : EReal)

end Cert.Pool

end
-- ==== Proof.Blocks.lean ====
/-
  The windows' blocks and a chunk's scores, read off the argument arrays.

  Grid point `t` is batch tile `t / 4` and sequence tile `t % 4`. Its block of features is rows `64·(t % 4) …` of the
  sequence axis and rows `256·(t / 4) …` of the batch axis; the weight, the bias row and the context row are whole arrays
  at every point — the weight through a change of float format (the identity on extended reals), the context row the
  [100,1] column read as a [1,100] row. So chunk `n/16` of the block, at chunk position `r` and row `p`, is sequence
  position `64·(t % 4) + n + r` of batch row `256·(t / 4) + p`, and its score is the specification's score there.
-/
import proofs.«108198_j24017457119662_2_alg».proof.Proof.Gen.KernelIdeal.Frame
import proofs.«108198_j24017457119662_2_alg».proof.Proof.Pieces
import proofs.«108198_j24017457119662_2_alg».proof.Proof.Spec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Steps Cert.KernelIdeal.Pieces

variable (m : (ℓ : Loc nD τ sig) → Buf (Elt Ideal) ℓ)

/-- The index maps over the grid: the features' block moves along both axes, the other three never move. -/
theorem idx0_facts : ∀ t : Fin cfg0.N, win0_0.index t 0 = t.val % 4 ∧ win0_0.index t 1 = t.val / 4 ∧ win0_0.index t 2 = 0 :=
  (by decide +kernel : ∀ t : Fin grid0.N, win0_0.index t 0 = t.val % 4 ∧ win0_0.index t 1 = t.val / 4 ∧ win0_0.index t 2 = 0)
theorem idx1_facts : ∀ t : Fin cfg0.N, win0_1.index t 0 = 0 ∧ win0_1.index t 1 = 0 :=
  (by decide +kernel : ∀ t : Fin grid0.N, win0_1.index t 0 = 0 ∧ win0_1.index t 1 = 0)
theorem idx2_facts : ∀ t : Fin cfg0.N, win0_2.index t 0 = 0 ∧ win0_2.index t 1 = 0 :=
  (by decide +kernel : ∀ t : Fin grid0.N, win0_2.index t 0 = 0 ∧ win0_2.index t 1 = 0)
theorem idx3_facts : ∀ t : Fin cfg0.N, win0_3.index t 0 = 0 ∧ win0_3.index t 1 = 0 :=
  (by decide +kernel : ∀ t : Fin grid0.N, win0_3.index t 0 = 0 ∧ win0_3.index t 1 = 0)

/-- The features' block at a point, entry by entry. -/
theorem iblk0_apply (c : Dev nD) (t : Fin cfg0.N) (y : S64x256x100.Idx) (i : S256x4096x100.Idx)
    (h0 : (i 0).val = 64 * (t.val % 4) + (y 0).val) (h1 : (i 1).val = 256 * (t.val / 4) + (y 1).val) (h2 : (i 2).val = (y 2).val) :
    (iblk m c 0 t : Vec Ideal S64x256x100 .f32) y = m ((c : Thread nD τ).loc main_arg0) i := by
  obtain ⟨e0, e1, e2⟩ := idx0_facts t
  unfold iblk
  rw [View.read_apply]
  show V m c main_arg0 _ = _
  rw [V_main_arg0]
  refine congrArg _ (funext fun a => Fin.ext ?_)
  match a with
  | ⟨0, _⟩ => show win0_0.index t 0 * 64 + 1 * (y 0).val = (i 0).val; rw [e0, h0]; omega
  | ⟨1, _⟩ => show win0_0.index t 1 * 256 + 1 * (y 1).val = (i 1).val; rw [e1, h1]; omega
  | ⟨2, _⟩ => show win0_0.index t 2 * 100 + 1 * (y 2).val = (i 2).val; rw [e2, h2]; omega

/-- The weight's block is the whole array the host left for it. -/
theorem iblk1_apply (c : Dev nD) (t : Fin cfg0.N) (y : S100x100.Idx) :
    (iblk m c 1 t : Vec Ideal S100x100 .bf16) y = V m c main_v0 y := by
  obtain ⟨e0, e1⟩ := idx1_facts t
  unfold iblk
  rw [View.read_apply]
  show V m c main_v0 _ = _
  refine congrArg _ (funext fun a => Fin.ext ?_)
  match a with
  | ⟨0, _⟩ => show win0_1.index t 0 * 100 + 1 * (y 0).val = (y 0).val; rw [e0]; omega
  | ⟨1, _⟩ => show win0_1.index t 1 * 100 + 1 * (y 1).val = (y 1).val; rw [e1]; omega

/-- The bias row's block is the whole argument. -/
theorem iblk2_apply (c : Dev nD) (t : Fin cfg0.N) (y : S1x100.Idx) :
    (iblk m c 2 t : Vec Ideal S1x100 .f32) y = m ((c : Thread nD τ).loc main_arg3) y := by
  obtain ⟨e0, e1⟩ := idx2_facts t
  unfold iblk
  rw [View.read_apply]
  show V m c main_arg3 _ = _
  rw [V_main_arg3]
  refine congrArg _ (funext fun a => Fin.ext ?_)
  match a with
  | ⟨0, _⟩ => show win0_2.index t 0 * 1 + 1 * (y 0).val = (y 0).val; rw [e0]; omega
  | ⟨1, _⟩ => show win0_2.index t 1 * 100 + 1 * (y 1).val = (y 1).val; rw [e1]; omega

/-- The context row's block is the whole row the host left for it. -/
theorem iblk3_apply (c : Dev nD) (t : Fin cfg0.N) (y : S1x100.Idx) :
    (iblk m c 3 t : Vec Ideal S1x100 .f32) y = V m c main_v1 y := by
  obtain ⟨e0, e1⟩ := idx3_facts t
  unfold iblk
  rw [View.read_apply]
  show V m c main_v1 _ = _
  refine congrArg _ (funext fun a => Fin.ext ?_)
  match a with
  | ⟨0, _⟩ => show win0_3.index t 0 * 1 + 1 * (y 0).val = (y 0).val; rw [e0]; omega
  | ⟨1, _⟩ => show win0_3.index t 1 * 100 + 1 * (y 1).val = (y 1).val; rw [e1]; omega

/-- What the host left in the weight's array: the argument, its float format changed. -/
theorem V_main_v0 (c : Dev nD) :
    (V m c main_v0 : S100x100.Idx → EReal) = truncf (F := Ideal) .bf16 (m ((c : Thread nD τ).loc main_arg2) : S100x100.Idx → EReal) bitsLt_bf16_f32 := by
  dsimp only [V, hostOps0]; after_results

/-- What the host left in the context row's array: the [100,1] column read as a [1,100] row. -/
theorem V_main_v1 (c : Dev nD) :
    (V m c main_v1 : S1x100.Idx → EReal) = shapeCast S1x100 (m ((c : Thread nD τ).loc main_arg4) : S100x1.Idx → EReal) shapeCasts_S100x1_S1x100 := by
  dsimp only [V, hostOps0]; after_results; rfl

/-! ## A chunk of the features' block, the weight and the context row at an entry -/

/-- Chunk `n/16` at chunk position `r` is row `n + r` of the block. -/
theorem chunk_apply (x0 : Vec Ideal S64x256x100 .f32) (n : ℕ) (hn : n + 16 ≤ 64) (r : Fin 16) (p : Fin 256) (d : Fin 100)
    (y : S64x256x100.Idx) (h0 : (y 0).val = n + r.val) (h1 : (y 1).val = p.val) (h2 : (y 2).val = d.val) :
    chunk x0 n hn (ix3 r p d) = x0 y := by
  unfold chunk
  show x0 _ = x0 y
  refine congrArg x0 (funext fun a => Fin.ext ?_)
  match a with
  | ⟨0, _⟩ => show n + 1 * r.val = (y 0).val; omega
  | ⟨1, _⟩ => show 0 + 1 * p.val = (y 1).val; omega
  | ⟨2, _⟩ => show 0 + 1 * d.val = (y 2).val; omega

/-- A chunk's feature is the argument's, at sequence position `64·(t % 4) + n + r` of batch row `256·(t / 4) + p`. -/
theorem chunk_feat (c : Dev nD) (t : Fin cfg0.N) (n : ℕ) (hn : n + 16 ≤ 64) (r : Fin 16) (p : Fin 256) (q : Fin 100)
    (s : Fin 256) (b : Fin 4096) (hs : s.val = 64 * (t.val % 4) + n + r.val) (hb : b.val = 256 * (t.val / 4) + p.val) :
    chunk (iblk m c 0 t : Vec Ideal S64x256x100 .f32) n hn (ix3 r p q) = m ((c : Thread nD τ).loc main_arg0) (ix3 s b q) := by
  rw [chunk_apply _ n hn r p q (ix3 (⟨n + r.val, by have := r.isLt; omega⟩ : Fin 64) p q) rfl rfl rfl]
  exact iblk0_apply m c t _ (ix3 s b q) (by show s.val = 64 * (t.val % 4) + (n + r.val); omega)
    (by show b.val = 256 * (t.val / 4) + p.val; exact hb) rfl

/-- The weight at an entry is the argument's: the change of float format is the identity on extended reals. -/
theorem w_at (c : Dev nD) (t : Fin cfg0.N) (d e : Fin 100) :
    (iblk m c 1 t : Vec Ideal S100x100 .bf16) (ix2 d e) = m ((c : Thread nD τ).loc main_arg2) (ix2 d e) := by
  rw [iblk1_apply, congrFun (V_main_v0 m c) (ix2 d e)]
  rfl

/-- The context row at lane `e` is the argument column at row `e`. -/
theorem c_at (c : Dev nD) (t : Fin cfg0.N) (e : Fin 100) :
    (iblk m c 3 t : Vec Ideal S1x100 .f32) (ix2 (0 : Fin 1) e) = m ((c : Thread nD τ).loc main_arg4) (ix2 e (0 : Fin 1)) := by
  rw [iblk3_apply, congrFun (V_main_v1 m c) (ix2 (0 : Fin 1) e)]
  refine shapeCast_apply _ _ _ (ix2 e (0 : Fin 1)) ?_
  rw [Shape.rowMajor_val_two, Shape.rowMajor_val_two]
  show e.val * 1 + 0 = 0 * 100 + e.val
  omega

/-- A CHUNK'S SCORE is the specification's score of its sequence position and batch row. -/
theorem cscore_eq (c : Dev nD) (t : Fin cfg0.N) (n : ℕ) (hn : n + 16 ≤ 64) (r : Fin 16) (p : Fin 256)
    (s : Fin 256) (b : Fin 4096) (hs : s.val = 64 * (t.val % 4) + n + r.val) (hb : b.val = 256 * (t.val / 4) + p.val) :
    cscore (iblk m c 1 t : Vec Ideal S100x100 .bf16) (iblk m c 2 t : Vec Ideal S1x100 .f32) (iblk m c 3 t : Vec Ideal S1x100 .f32)
        (chunk (iblk m c 0 t : Vec Ideal S64x256x100 .f32) n hn) r p
      = Cert.Pool.score (m ((c : Thread nD τ).loc main_arg0)) (m ((c : Thread nD τ).loc main_arg2))
          (m ((c : Thread nD τ).loc main_arg3)) (m ((c : Thread nD τ).loc main_arg4)) s b := by
  unfold cscore Cert.Pool.score Cert.Pool.hid
  refine congrArg Ideal.tanh (Finset.sum_congr rfl fun e _ => ?_)
  rw [c_at m c t e, iblk2_apply m c t (ix2 (0 : Fin 1) e)]
  refine congrArg (fun z => Ideal.tanh (z + _) * _) (Finset.sum_congr rfl fun d _ => ?_)
  rw [chunk_feat m c t n hn r p d s b hs hb, w_at m c t d e]

end Cert.KernelIdeal.Blocks

end
-- ==== Proof.LibOnlineSoftmax.lean ====
/-
  Online softmax pooling over the extended reals.

  A softmax-weighted average  (∑ₛ e^{σₛ} φₛ) / (∑ₛ e^{σₛ})  can be accumulated chunk by chunk while a running
  shift `m` is kept: with `l = (∑ e^{σₛ}) · e^{-m}` and `a = (∑ e^{σₛ} φₛ) · e^{-m}` over the positions seen so far, a new
  chunk and ANY new real shift `m'` give  `l' = e^{m - m'} · l + ∑ᵣ e^{σᵣ - m'}`  and the same for `a`; the quotient `a / l`
  does not depend on the shifts. The first chunk starts from the shift `-∞`, where `e^{-∞ - m'} = 0` and both sums are `0`.
  Nothing here needs the shift to be the running maximum: only that it is a real number after the first chunk, which a
  maximum over a nonempty chunk of reals is.
-/
import Idealize.ShloMosaic.PureOps.Ideal

noncomputable section

namespace OnlineSoftmax

open Idealize.ShloMosaic

/-- The coercion of a finite sum of reals into the extended reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- `Tracks m x X`: under the running shift `m`, the accumulator `x` holds the unshifted real sum `X` scaled by
    `e^{-m}`; before the first chunk the shift is `-∞` and both are zero. -/
def Tracks (m x : EReal) (X : ℝ) : Prop :=
  (m = ⊥ ∧ x = 0 ∧ X = 0) ∨ ∃ μ : ℝ, m = (μ : EReal) ∧ x = ((X * Real.exp (-μ) : ℝ) : EReal)

theorem tracks_init : Tracks ⊥ 0 0 := Or.inl ⟨rfl, rfl, rfl⟩

/-- A shift is `-∞` or a real number. -/
def Shift (m : EReal) : Prop := m = ⊥ ∨ ∃ μ : ℝ, m = (μ : EReal)

theorem Tracks.shift {m x : EReal} {X : ℝ} (h : Tracks m x X) : Shift m :=
  h.elim (fun h => Or.inl h.1) (fun ⟨μ, h, _⟩ => Or.inr ⟨μ, h⟩)

/-- The maximum of finitely many reals, folded from `-∞`, is one of them when there is at least one. -/
theorem fold_max_real {ι : Type*} [Fintype ι] [Nonempty ι] (σ : ι → ℝ) :
    ∃ ν : ℝ, (Finset.univ : Finset ι).fold max (⊥ : EReal) (fun r => (σ r : EReal)) = (ν : EReal) := by
  obtain ⟨i, -, hi⟩ := Finset.exists_mem_eq_sup (Finset.univ : Finset ι) Finset.univ_nonempty (fun r => (σ r : EReal))
  exact ⟨σ i, hi⟩

/-- So the running maximum after a nonempty chunk of reals is a real number. -/
theorem max_fold_real {ι : Type*} [Fintype ι] [Nonempty ι] {m : EReal} (hm : Shift m) (σ : ι → ℝ) :
    ∃ μ' : ℝ, max m ((Finset.univ : Finset ι).fold max (⊥ : EReal) (fun r => (σ r : EReal))) = (μ' : EReal) := by
  obtain ⟨ν, hν⟩ := fold_max_real σ
  rw [hν]
  rcases hm with rfl | ⟨μ, rfl⟩
  · exact ⟨ν, max_eq_right bot_le⟩
  · exact ⟨max μ ν, (EReal.coe_strictMono.monotone.map_max).symm⟩

/-- THE CHUNK STEP. Rescaling the accumulator by `e^{m - m'}` and adding the chunk's terms `e^{σᵣ - m'} · wᵣ` tracks the
    sum extended by `∑ᵣ e^{σᵣ} wᵣ` under the new shift `m'`, whatever real `m'` is. -/
theorem Tracks.step {ι : Type*} [Fintype ι] {m x : EReal} {X : ℝ} (h : Tracks m x X) (μ' : ℝ) (σ w : ι → ℝ) :
    Tracks (μ' : EReal)
      (Ideal.exp (m - (μ' : EReal)) * x + ∑ r, Ideal.exp ((σ r : EReal) - (μ' : EReal)) * (w r : EReal))
      (X + ∑ r, Real.exp (σ r) * w r) := by
  refine Or.inr ⟨μ', rfl, ?_⟩
  have hs : ∑ r, Ideal.exp ((σ r : EReal) - (μ' : EReal)) * (w r : EReal)
      = ((∑ r, Real.exp (σ r - μ') * w r : ℝ) : EReal) := by
    rw [coe_sum]
    refine Finset.sum_congr rfl fun r _ => ?_
    rw [← EReal.coe_sub, Ideal.exp_coe, ← EReal.coe_mul]
  have hr : ∑ r, Real.exp (σ r - μ') * w r = (∑ r, Real.exp (σ r) * w r) * Real.exp (-μ') := by
    rw [Finset.sum_mul]
    refine Finset.sum_congr rfl fun r _ => ?_
    rw [sub_eq_add_neg, Real.exp_add]; ring
  rw [hs, hr]
  rcases h with ⟨rfl, rfl, rfl⟩ | ⟨μ, rfl, rfl⟩
  · rw [EReal.bot_sub, Ideal.exp_bot, zero_mul, zero_add, zero_add]
  · rw [← EReal.coe_sub, Ideal.exp_coe, ← EReal.coe_mul, ← EReal.coe_add]
    congr 1
    have : Real.exp (μ - μ') * (X * Real.exp (-μ)) = X * Real.exp (-μ') := by
      rw [sub_eq_add_neg, Real.exp_add, Real.exp_neg μ]
      field_simp
    rw [this]; ring

/-- The same step for the normalizer, whose terms carry no weight. -/
theorem Tracks.step_one {ι : Type*} [Fintype ι] {m x : EReal} {X : ℝ} (h : Tracks m x X) (μ' : ℝ) (σ : ι → ℝ) :
    Tracks (μ' : EReal)
      (Ideal.exp (m - (μ' : EReal)) * x + ∑ r, Ideal.exp ((σ r : EReal) - (μ' : EReal)))
      (X + ∑ r, Real.exp (σ r)) := by
  have := h.step μ' σ (fun _ => 1)
  simpa using this

/-- THE QUOTIENT. Under a real shift, the weighted accumulator over the normalizer is the softmax average, whatever
    the shift: `(N e^{-μ}) / (W e^{-μ}) = N / W` for `W > 0`. -/
theorem Tracks.div {m l a : EReal} {W N : ℝ} (hm : ∃ μ : ℝ, m = (μ : EReal)) (hl : Tracks m l W) (ha : Tracks m a N)
    (hW : 0 < W) : Ideal.div a l = ((N / W : ℝ) : EReal) := by
  obtain ⟨μ, rfl⟩ := hm
  rcases hl with ⟨h, -, -⟩ | ⟨μ₁, h₁, rfl⟩
  · exact absurd h (EReal.coe_ne_bot μ)
  rcases ha with ⟨h, -, -⟩ | ⟨μ₂, h₂, rfl⟩
  · exact absurd h (EReal.coe_ne_bot μ)
  have e1 : μ₁ = μ := (EReal.coe_eq_coe_iff.mp h₁).symm
  have e2 : μ₂ = μ := (EReal.coe_eq_coe_iff.mp h₂).symm
  rw [e1, e2]
  have hne : W * Real.exp (-μ) ≠ 0 := mul_ne_zero hW.ne' (Real.exp_ne_zero _)
  rw [Ideal.div_coe hne, ← EReal.coe_mul]
  congr 1
  field_simp

/-- The plain two-pass form: every term `e^{σₛ - μ}` divided by their sum, weighted and summed, is the same average. -/
theorem two_pass {ι : Type*} [Fintype ι] [Nonempty ι] (μ : ℝ) (σ φ : ι → ℝ) :
    (0 : EReal) + ∑ s, (φ s : EReal) * Ideal.div (Ideal.exp ((σ s : EReal) - (μ : EReal)))
        ((0 : EReal) + ∑ s', Ideal.exp ((σ s' : EReal) - (μ : EReal)))
      = (((∑ s, Real.exp (σ s) * φ s) / (∑ s, Real.exp (σ s)) : ℝ) : EReal) := by
  have hW : 0 < ∑ s, Real.exp (σ s) := Finset.sum_pos (fun s _ => Real.exp_pos _) Finset.univ_nonempty
  have hL : (0 : EReal) + ∑ s', Ideal.exp ((σ s' : EReal) - (μ : EReal))
      = (((∑ s, Real.exp (σ s)) * Real.exp (-μ) : ℝ) : EReal) := by
    rw [zero_add, Finset.sum_mul, coe_sum]
    refine Finset.sum_congr rfl fun s _ => ?_
    rw [← EReal.coe_sub, Ideal.exp_coe, sub_eq_add_neg, Real.exp_add]
  have hne : (∑ s, Real.exp (σ s)) * Real.exp (-μ) ≠ 0 := mul_ne_zero hW.ne' (Real.exp_ne_zero _)
  rw [hL, zero_add, Finset.sum_div, coe_sum]
  refine Finset.sum_congr rfl fun s _ => ?_
  rw [Ideal.div_coe hne, ← EReal.coe_sub, Ideal.exp_coe, ← EReal.coe_mul, ← EReal.coe_mul]
  congr 1
  rw [sub_eq_add_neg, Real.exp_add]
  field_simp

end OnlineSoftmax

end
-- ==== Proof.ChunkStep.lean ====
/-
  One chunk step keeps the invariant.

  `Inv σ φ T m l a`: under the shift `m`, the normalizer `l` tracks `∑_{s<T} e^{σ s}` and, for every feature `q`, the
  accumulator `a q` tracks `∑_{s<T} e^{σ s} · φ s q`. A chunk step whose sixteen scores are `σ T … σ (T+15)` and whose
  features are `φ T … φ (T+15)` carries it from `T` to `T + 16`, and leaves a real shift.
-/
import proofs.«108198_j24017457119662_2_alg».proof.Proof.Steps
import proofs.«108198_j24017457119662_2_alg».proof.Proof.LibOnlineSoftmax

noncomputable section

namespace Cert.KernelIdeal.Steps

open Cert.KernelIdeal Idealize.ShloMosaic Idealize.ShloMosaic.ValueIdx OnlineSoftmax

/-- The three buffers of one row track the sums over the first `T` sequence positions. -/
def Inv (σ : ℕ → ℝ) (φ : ℕ → Fin 100 → ℝ) (T : ℕ) (m l : EReal) (a : Fin 100 → EReal) : Prop :=
  Tracks m l (∑ s ∈ Finset.range T, Real.exp (σ s)) ∧ ∀ q, Tracks m (a q) (∑ s ∈ Finset.range T, Real.exp (σ s) * φ s q)

/-- Before the first position: the shift `-∞`, both sums zero. -/
theorem inv_zero (σ : ℕ → ℝ) (φ : ℕ → Fin 100 → ℝ) : Inv σ φ 0 ⊥ 0 (fun _ => 0) :=
  ⟨by rw [Finset.range_zero, Finset.sum_empty]; exact tracks_init,
   fun q => by rw [Finset.range_zero, Finset.sum_empty]; exact tracks_init⟩

theorem sum_range_add16 (g : ℕ → ℝ) (T : ℕ) :
    ∑ s ∈ Finset.range (T + 16), g s = ∑ s ∈ Finset.range T, g s + ∑ r : Fin 16, g (T + r.val) := by
  rw [Finset.sum_range_add]
  exact congrArg (_ + ·) (Finset.sum_range fun x => g (T + x))

/-- THE CHUNK STEP on one row. -/
theorem inv_chunk (w : S100x100.Idx → EReal) (bias c : S1x100.Idx → EReal) (b : S16x256x100.Idx → EReal)
    (m l : S256x1.Idx → EReal) (a : S256x100.Idx → EReal) (p : Fin 256)
    (σ : ℕ → ℝ) (φ : ℕ → Fin 100 → ℝ) (T : ℕ)
    (hσ : ∀ r : Fin 16, cscore w bias c b r p = ((σ (T + r.val) : ℝ) : EReal))
    (hφ : ∀ (r : Fin 16) (q : Fin 100), b (ix3 r p q) = ((φ (T + r.val) q : ℝ) : EReal))
    (h : Inv σ φ T (m (ix2 p (0 : Fin 1))) (l (ix2 p (0 : Fin 1))) (fun q => a (ix2 p q))) :
    (∃ μ' : ℝ, mNew w bias c b m p = (μ' : EReal)) ∧
      Inv σ φ (T + 16) (mNew w bias c b m p) (lNew w bias c b m l p) (fun q => aNew w bias c b m a p q) := by
  have hcs : (fun r => cscore w bias c b r p) = fun r : Fin 16 => ((σ (T + r.val) : ℝ) : EReal) := funext hσ
  obtain ⟨μ', hμ'⟩ : ∃ μ' : ℝ, mNew w bias c b m p = (μ' : EReal) := by
    unfold mNew; rw [hcs]; exact max_fold_real h.1.shift (fun r : Fin 16 => σ (T + r.val))
  refine ⟨⟨μ', hμ'⟩, ?_, fun q => ?_⟩
  · unfold lNew
    rw [hμ', sum_range_add16]
    simp only [hσ]
    exact h.1.step_one μ' (fun r : Fin 16 => σ (T + r.val))
  · unfold aNew
    rw [hμ', sum_range_add16]
    simp only [hσ, hφ]
    exact (h.2 q).step μ' (fun r : Fin 16 => σ (T + r.val)) (fun r : Fin 16 => φ (T + r.val) q)

end Cert.KernelIdeal.Steps

end
-- ==== Proof.StepReads.lean ====
/-
  The kernel body's four sub-steps read at an entry, at the ideal instance.

  Each of the four spellings `m1 … m4`, `l1 … l4`, `a1 … a4` of the chunk step is, operation for operation, the same
  sequence over one score array: the hidden layer `tanh (f · w + bias)` of the flattened chunk, reshaped back; the score
  `tanh (∑ₑ hidden(r,p,e) · c(e))` kept as a `[16, 256, 1]` array; the maximum over the sixteen positions from `-∞`; the new
  running maximum; `e^{m - m'}`; `e^{σ - m'}` through a column broadcast; and the two sums over the positions. The lemmas of
  `StepReads` read each of these operations at an entry; the twelve theorems after it conclude that every spelling is the one
  chunk step `mNew`, `lNew`, `aNew`.
-/
import proofs.«108198_j24017457119662_2_alg».proof.Proof.Steps
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Steps

open Cert.KernelIdeal Cert.KernelIdeal.Gen Idealize.ShloMosaic Idealize.ShloMosaic.ValueIdx

namespace StepReads

/-! ## Layout operations of the chunk step read at an entry -/

section Layout
variable {α : Type}

/-- Row `256·r + p` of the flattened `[4096, 100]` matrix is position `(r, p)` of the `[16, 256, 100]` chunk. -/
theorem flatten_apply (x : S16x256x100.Idx → α) (h : S16x256x100.ShapeCasts S4096x100) (r : Fin 16) (p : Fin 256) (d : Fin 100) :
    shapeCast S4096x100 x h (ix2 (⟨256 * r.val + p.val, by omega⟩ : Fin 4096) d) = x (ix3 r p d) :=
  shapeCast_apply x h _ _ (by
    rw [Shape.rowMajor_val_three, Shape.rowMajor_val_two]
    show (r.val * 256 + p.val) * 100 + d.val = (256 * r.val + p.val) * 100 + d.val
    omega)

/-- … and back. -/
theorem unflatten_apply (x : S4096x100.Idx → α) (h : S4096x100.ShapeCasts S16x256x100) (r : Fin 16) (p : Fin 256) (e : Fin 100) :
    shapeCast S16x256x100 x h (ix3 r p e) = x (ix2 (⟨256 * r.val + p.val, by omega⟩ : Fin 4096) e) :=
  shapeCast_apply x h _ _ (by
    rw [Shape.rowMajor_val_three, Shape.rowMajor_val_two]
    show (256 * r.val + p.val) * 100 + e.val = (r.val * 256 + p.val) * 100 + e.val
    omega)

/-- A `[16, 256]` array given a trailing unit axis. -/
theorem keepdim_apply (x : S16x256.Idx → α) (h : S16x256.ShapeCasts S16x256x1) (r : Fin 16) (p : Fin 256) (u : Fin 1) :
    shapeCast S16x256x1 x h (ix3 r p u) = x (ix2 r p) :=
  shapeCast_apply x h _ _ (by
    have hu : u.val = 0 := by omega
    rw [Shape.rowMajor_val_three, Shape.rowMajor_val_two]
    show r.val * 256 + p.val = (r.val * 256 + p.val) * 1 + u.val
    omega)

/-- The context row `[1, 1, 100]` broadcast over the chunk. -/
theorem bcast_ctx_apply (x : S1x1x100.Idx → α) (h : S1x1x100.Broadcasts S16x256x100) (r : Fin 16) (p : Fin 256) (e : Fin 100) :
    broadcastTo S16x256x100 x h (ix3 r p e) = x (ix3 (0 : Fin 1) (0 : Fin 1) e) := by
  refine broadcastTo_apply x h (ix3 r p e) (ix3 (0 : Fin 1) (0 : Fin 1) e) fun ax => ?_
  match ax with
  | ⟨0, _⟩ => rfl
  | ⟨1, _⟩ => rfl
  | ⟨2, _⟩ => rfl

/-- A `[1, 256, 1]` column broadcast over the sixteen chunk positions. -/
theorem bcast_col_apply (x : S1x256x1.Idx → α) (h : S1x256x1.Broadcasts S16x256x1) (r : Fin 16) (p : Fin 256) (u : Fin 1) :
    broadcastTo S16x256x1 x h (ix3 r p u) = x (ix3 (0 : Fin 1) p (0 : Fin 1)) := by
  refine broadcastTo_apply x h (ix3 r p u) (ix3 (0 : Fin 1) p (0 : Fin 1)) fun ax => ?_
  match ax with
  | ⟨0, _⟩ => rfl
  | ⟨1, _⟩ => rfl
  | ⟨2, _⟩ => rfl

/-- A `[16, 256, 1]` array broadcast along the feature axis. -/
theorem bcast_lane_apply (x : S16x256x1.Idx → α) (h : S16x256x1.Broadcasts S16x256x100) (r : Fin 16) (p : Fin 256) (q : Fin 100) :
    broadcastTo S16x256x100 x h (ix3 r p q) = x (ix3 r p (0 : Fin 1)) := by
  refine broadcastTo_apply x h (ix3 r p q) (ix3 r p (0 : Fin 1)) fun ax => ?_
  match ax with
  | ⟨0, _⟩ => rfl
  | ⟨1, _⟩ => rfl
  | ⟨2, _⟩ => rfl

/-- A `[256, 1]` column broadcast along the feature axis. -/
theorem bcast_row_apply (x : S256x1.Idx → α) (h : S256x1.Broadcasts S256x100) (p : Fin 256) (q : Fin 100) :
    broadcastTo S256x100 x h (ix2 p q) = x (ix2 p (0 : Fin 1)) := by
  refine broadcastTo_apply x h (ix2 p q) (ix2 p (0 : Fin 1)) fun ax => ?_
  match ax with
  | ⟨0, _⟩ => rfl
  | ⟨1, _⟩ => rfl

end Layout

/-! ## The contraction and the reductions read at an entry (ideal instance) -/

section Reductions

/-- The left operand of the contraction is read in row `j 0` … -/
theorem dot_lhs_0 (j : S4096x100.Idx) (q : dot_S4096x100_S100x100_S4096x100_1_0_0_1_n_n.contr.Idx) :
    (dot_S4096x100_S100x100_S4096x100_1_0_0_1_n_n.lhsIdx j q 0).val = (j 0).val := by
  unfold DotDims.lhsIdx
  rw [dif_neg (show ¬(0 : Fin S4096x100.rank) ∈ dot_S4096x100_S100x100_S4096x100_1_0_0_1_n_n.lhsBatch by decide), dif_pos (show (0 : Fin S4096x100.rank) ∈ dot_S4096x100_S100x100_S4096x100_1_0_0_1_n_n.lhsNonContracting by decide)]
  rfl
/-- … at the contraction index; -/
theorem dot_lhs_1 (j : S4096x100.Idx) (q : dot_S4096x100_S100x100_S4096x100_1_0_0_1_n_n.contr.Idx) :
    (dot_S4096x100_S100x100_S4096x100_1_0_0_1_n_n.lhsIdx j q 1).val = (q ⟨0, by decide⟩).val :=
  dot_S4096x100_S100x100_S4096x100_1_0_0_1_n_n.lhsIdx_val_of_single rfl j q
/-- the right operand at the contraction index … -/
theorem dot_rhs_0 (j : S4096x100.Idx) (q : dot_S4096x100_S100x100_S4096x100_1_0_0_1_n_n.contr.Idx) :
    (dot_S4096x100_S100x100_S4096x100_1_0_0_1_n_n.rhsIdx j q 0).val = (q ⟨0, by decide⟩).val :=
  dot_S4096x100_S100x100_S4096x100_1_0_0_1_n_n.rhsIdx_val_of_single rfl j q
/-- … in column `j 1`. -/
theorem dot_rhs_1 (j : S4096x100.Idx) (q : dot_S4096x100_S100x100_S4096x100_1_0_0_1_n_n.contr.Idx) :
    (dot_S4096x100_S100x100_S4096x100_1_0_0_1_n_n.rhsIdx j q 1).val = (j 1).val := by
  unfold DotDims.rhsIdx
  rw [dif_neg (show ¬(1 : Fin S100x100.rank) ∈ dot_S4096x100_S100x100_S4096x100_1_0_0_1_n_n.rhsBatch by decide), dif_pos (show (1 : Fin S100x100.rank) ∈ dot_S4096x100_S100x100_S4096x100_1_0_0_1_n_n.rhsNonContracting by decide)]
  rfl

/-- The matrix product into the zero accumulator: entry `(i, e)` is `∑ d, lhs (i, d) · w (d, e)`. -/
theorem matmul_read (lhs : FVec Ideal S4096x100 .bf16) (w : FVec Ideal S100x100 .bf16) (i : Fin 4096) (e : Fin 100) :
    matmul dot_S4096x100_S100x100_S4096x100_1_0_0_1_n_n none lhs w (constant (F := Ideal) S4096x100 .f32 0x00000000#32) (ix2 i e)
      = ∑ d : Fin 100, lhs (ix2 i d) * w (ix2 d e) := by
  show FloatOps.matmul dot_S4096x100_S100x100_S4096x100_1_0_0_1_n_n none lhs w (constant (F := Ideal) S4096x100 .f32 0x00000000#32) (ix2 i e) = _
  rw [Ideal.matmul_constant_zero_apply, ← Equiv.sum_comp (contrEquiv1 dot_S4096x100_S100x100_S4096x100_1_0_0_1_n_n 100 rfl rfl).symm]
  refine Finset.sum_congr rfl fun k _ => ?_
  have hk := contrEquiv1_symm_val dot_S4096x100_S100x100_S4096x100_1_0_0_1_n_n 100 rfl rfl k
  have el : dot_S4096x100_S100x100_S4096x100_1_0_0_1_n_n.lhsIdx (ix2 i e) ((contrEquiv1 dot_S4096x100_S100x100_S4096x100_1_0_0_1_n_n 100 rfl rfl).symm k) = ix2 i k :=
    funext fun a => Fin.ext (by
      match a with
      | ⟨0, _⟩ => exact dot_lhs_0 _ _
      | ⟨1, _⟩ => exact (dot_lhs_1 _ _).trans hk)
  have er : dot_S4096x100_S100x100_S4096x100_1_0_0_1_n_n.rhsIdx (ix2 i e) ((contrEquiv1 dot_S4096x100_S100x100_S4096x100_1_0_0_1_n_n 100 rfl rfl).symm k) = ix2 k e :=
    funext fun a => Fin.ext (by
      match a with
      | ⟨0, _⟩ => exact (dot_rhs_0 _ _).trans hk
      | ⟨1, _⟩ => exact dot_rhs_1 _ _)
  rw [el, er]

/-- The sum over the feature axis of a `[16, 256, 100]` array. -/
theorem sum_lane_read (src : FVec Ideal S16x256x100 .f32) (h : S16x256x100.Reduces [2] S16x256) (hφ : FKind.Formats .f32)
    (hacc : (0x00000000#32 : BitVec 32) = FKind.add.neutral .f32 hφ) (r : Fin 16) (p : Fin 256) :
    multiReduction (F := Ideal) .add [2] S16x256 src 0x00000000#32 h hφ hacc (ix2 r p) = ∑ e : Fin 100, src (ix3 r p e) := by
  refine (Ideal.multiReduction_add_single src _ h hφ hacc (ix2 r p)).trans ?_
  refine Finset.sum_congr rfl fun e _ => congrArg src (funext fun c => ?_)
  match c with
  | ⟨0, _⟩ => rfl
  | ⟨1, _⟩ => rfl
  | ⟨2, _⟩ => rfl

/-- The sum over the sixteen chunk positions of a `[16, 256, 1]` array. -/
theorem sum_pos1_read (src : FVec Ideal S16x256x1 .f32) (h : S16x256x1.Reduces [0] S256x1) (hφ : FKind.Formats .f32)
    (hacc : (0x00000000#32 : BitVec 32) = FKind.add.neutral .f32 hφ) (p : Fin 256) (u : Fin 1) :
    multiReduction (F := Ideal) .add [0] S256x1 src 0x00000000#32 h hφ hacc (ix2 p u) = ∑ r : Fin 16, src (ix3 r p u) := by
  refine (Ideal.multiReduction_add_single src _ h hφ hacc (ix2 p u)).trans ?_
  refine Finset.sum_congr rfl fun e _ => congrArg src (funext fun c => ?_)
  match c with
  | ⟨0, _⟩ => rfl
  | ⟨1, _⟩ => rfl
  | ⟨2, _⟩ => rfl

/-- The sum over the sixteen chunk positions of a `[16, 256, 100]` array. -/
theorem sum_pos_read (src : FVec Ideal S16x256x100 .f32) (h : S16x256x100.Reduces [0] S256x100) (hφ : FKind.Formats .f32)
    (hacc : (0x00000000#32 : BitVec 32) = FKind.add.neutral .f32 hφ) (p : Fin 256) (q : Fin 100) :
    multiReduction (F := Ideal) .add [0] S256x100 src 0x00000000#32 h hφ hacc (ix2 p q) = ∑ r : Fin 16, src (ix3 r p q) := by
  refine (Ideal.multiReduction_add_single src _ h hφ hacc (ix2 p q)).trans ?_
  refine Finset.sum_congr rfl fun e _ => congrArg src (funext fun c => ?_)
  match c with
  | ⟨0, _⟩ => rfl
  | ⟨1, _⟩ => rfl
  | ⟨2, _⟩ => rfl

/-- The word `0xFF800000` is `-∞`. -/
theorem neg_inf_word : Ideal.ofBits .f32 0xFF800000#32 = (⊥ : EReal) := by
  simp [Ideal.ofBits, Ideal.ieee]

/-- The maximum over the sixteen chunk positions of a `[16, 256, 1]` array, from `-∞`. -/
theorem max_pos_read (src : FVec Ideal S16x256x1 .f32) (h : S16x256x1.Reduces [0] S256x1) (hφ : FKind.Formats .f32)
    (hacc : (0xFF800000#32 : BitVec 32) = FKind.maximumf.neutral .f32 hφ) (p : Fin 256) (u : Fin 1) :
    multiReduction (F := Ideal) .maximumf [0] S256x1 src 0xFF800000#32 h hφ hacc (ix2 p u)
      = (Finset.univ : Finset (Fin 16)).fold max (⊥ : EReal) (fun r => src (ix3 r p u)) := by
  refine (Ideal.multiReduction_maximumf_single src _ h hφ hacc (ix2 p u)).trans ?_
  rw [Ideal.ofBits_def, neg_inf_word]
  refine congrArg (fun f => (Finset.univ : Finset (Fin 16)).fold max (⊥ : EReal) f) (funext fun r => congrArg src (funext fun c => ?_))
  match c with
  | ⟨0, _⟩ => rfl
  | ⟨1, _⟩ => rfl
  | ⟨2, _⟩ => rfl

end Reductions

/-! ## The pointwise transcendental operations at an entry -/

section Pointwise
variable {s : Shape} {φ : FTy}
theorem tanh_apply (a : FVec Ideal s φ) (i : s.Idx) : tanh a i = Ideal.tanh (a i) := rfl
theorem exp_apply (a : FVec Ideal s φ) (i : s.Idx) : exp a i = Ideal.exp (a i) := rfl
end Pointwise

/-! ## The hidden layer and the score of a chunk -/

section Score
variable (w : FVec Ideal S100x100 .bf16) (bias c : Vec Ideal S1x100 .f32) (b : Vec Ideal S16x256x100 .f32)

/-- The hidden layer at chunk position `r`, row `p`, unit `e`: `tanh (∑ d, f(r,p,d) · w(d,e) + bias(e))`. -/
theorem hidden_read (r : Fin 16) (p : Fin 256) (e : Fin 100) :
    k0_pay30 w bias b (ix3 r p e)
      = Ideal.tanh ((∑ d : Fin 100, b (ix3 r p d) * w (ix2 d e)) + bias (ix2 (0 : Fin 1) e)) := by
  unfold k0_pay30
  refine (unflatten_apply _ _ r p e).trans ?_
  rw [tanh_apply, addf_apply, matmul_read, broadcastTo_1b_ab_apply]
  refine congrArg (fun t => Ideal.tanh (t + bias (ix2 (0 : Fin 1) e))) (Finset.sum_congr rfl fun d _ => ?_)
  rw [flatten_apply, truncf_apply]

/-- The context row, as the kernel broadcasts it over the chunk. -/
theorem ctx_read (r : Fin 16) (p : Fin 256) (e : Fin 100) :
    k0_pay31 (k0_pay6 c) (ix3 r p e) = c (ix2 (0 : Fin 1) e) := by
  unfold k0_pay31 k0_pay6
  refine (bcast_ctx_apply _ _ r p e).trans ?_
  refine (shapeCast_ab_1ab_apply _ _ (0 : Fin 1) (0 : Fin 1) e).trans ?_
  rw [shapeCast_self]

/-- The score from a hidden layer `hd` and a broadcast context `cx`: `tanh (∑ e, hd(r,p,e) · cx(r,p,e))`. -/
theorem score_read' (hd cx : FVec Ideal S16x256x100 .f32) (r : Fin 16) (p : Fin 256) (u : Fin 1) :
    k0_pay32 hd cx (ix3 r p u) = Ideal.tanh (∑ e : Fin 100, hd (ix3 r p e) * cx (ix3 r p e)) := by
  unfold k0_pay32
  rw [tanh_apply, keepdim_apply]
  exact congrArg Ideal.tanh (sum_lane_read (mulf hd cx) _ _ _ r p)

/-- The chunk's score at position `r`, row `p`. -/
theorem score_read (r : Fin 16) (p : Fin 256) :
    k0_pay32 (k0_pay30 w bias b) (k0_pay31 (k0_pay6 c)) (ix3 r p (0 : Fin 1)) = cscore w bias c b r p := by
  rw [score_read']
  unfold cscore
  refine congrArg Ideal.tanh (Finset.sum_congr rfl fun e _ => ?_)
  rw [hidden_read, ctx_read]

end Score

/-! ## The running maximum, normalizer and accumulator over an abstract score array -/

section Online
variable (sc : FVec Ideal S16x256x1 .f32) (b : Vec Ideal S16x256x100 .f32) (m l : Vec Ideal S256x1 .f32) (a : Vec Ideal S256x100 .f32)

theorem max_read (p : Fin 256) :
    k0_pay24 sc m (ix2 p (0 : Fin 1))
      = max (m (ix2 p (0 : Fin 1))) ((Finset.univ : Finset (Fin 16)).fold max (⊥ : EReal) (fun r => sc (ix3 r p (0 : Fin 1)))) := by
  unfold k0_pay24
  rw [maximumf_apply]
  exact congrArg (fun t => max (m (ix2 p (0 : Fin 1))) t) (max_pos_read sc _ _ _ p (0 : Fin 1))

theorem alpha_read (p : Fin 256) :
    k0_pay25 sc m (ix2 p (0 : Fin 1)) = Ideal.exp (m (ix2 p (0 : Fin 1)) - k0_pay24 sc m (ix2 p (0 : Fin 1))) := by
  unfold k0_pay25
  rw [exp_apply, subf_apply]

theorem weight_read (r : Fin 16) (p : Fin 256) :
    k0_pay26 sc m (ix3 r p (0 : Fin 1)) = Ideal.exp (sc (ix3 r p (0 : Fin 1)) - k0_pay24 sc m (ix2 p (0 : Fin 1))) := by
  unfold k0_pay26
  rw [exp_apply, subf_apply, bcast_col_apply, shapeCast_ab_1ab_apply]

theorem norm_read (p : Fin 256) :
    k0_pay27 sc m l (ix2 p (0 : Fin 1))
      = k0_pay25 sc m (ix2 p (0 : Fin 1)) * l (ix2 p (0 : Fin 1)) + ∑ r : Fin 16, k0_pay26 sc m (ix3 r p (0 : Fin 1)) := by
  unfold k0_pay27
  rw [shapeCast_self, addf_apply, mulf_apply]
  exact congrArg (fun t => k0_pay25 sc m (ix2 p (0 : Fin 1)) * l (ix2 p (0 : Fin 1)) + t) (sum_pos1_read (k0_pay26 sc m) _ _ _ p (0 : Fin 1))

theorem acc_read (p : Fin 256) (q : Fin 100) :
    k0_pay28 b sc m a (ix2 p q)
      = k0_pay25 sc m (ix2 p (0 : Fin 1)) * a (ix2 p q) + ∑ r : Fin 16, k0_pay26 sc m (ix3 r p (0 : Fin 1)) * b (ix3 r p q) := by
  unfold k0_pay28
  rw [shapeCast_self, addf_apply, mulf_apply, bcast_row_apply]
  refine congrArg (fun t => k0_pay25 sc m (ix2 p (0 : Fin 1)) * a (ix2 p q) + t)
    ((sum_pos_read _ _ _ _ p q).trans (Finset.sum_congr rfl fun r _ => ?_))
  rw [mulf_apply, bcast_lane_apply]

theorem max_store_read : k0_pay29 sc m = k0_pay24 sc m := by
  unfold k0_pay29
  rw [shapeCast_self]

end Online

/-! ## The chunk step over the chunk's score array -/

section Step
variable (x1 : Vec Ideal S100x100 .bf16) (x2 x3 : Vec Ideal S1x100 .f32) (b : Vec Ideal S16x256x100 .f32)
  (m l : Vec Ideal S256x1 .f32) (a : Vec Ideal S256x100 .f32)

/-- The score array of the chunk, as an array of shape `[16, 256, 1]`: the one every spelling computes. -/
def scoreVec : FVec Ideal S16x256x1 .f32 :=
  k0_pay32 (k0_pay30 (k0_pay5 x1) x2 b) (k0_pay31 (k0_pay6 x3))

theorem scoreVec_read (r : Fin 16) (p : Fin 256) :
    scoreVec x1 x2 x3 b (ix3 r p (0 : Fin 1)) = cscore x1 x2 x3 b r p := by
  unfold scoreVec
  have e5 : k0_pay5 x1 = x1 := shapeCast_self _ _
  rw [e5]
  exact score_read x1 x2 x3 b r p

/-- The new running maximum over the chunk's score array. -/
theorem mStep (p : Fin 256) :
    k0_pay29 (scoreVec x1 x2 x3 b) m (ix2 p (0 : Fin 1)) = mNew x1 x2 x3 b m p := by
  rw [max_store_read, max_read]
  unfold mNew
  refine congrArg (fun f => max (m (ix2 p (0 : Fin 1))) ((Finset.univ : Finset (Fin 16)).fold max (⊥ : EReal) f)) (funext fun r => ?_)
  exact scoreVec_read x1 x2 x3 b r p

theorem mStep' (p : Fin 256) :
    k0_pay24 (scoreVec x1 x2 x3 b) m (ix2 p (0 : Fin 1)) = mNew x1 x2 x3 b m p := by
  rw [← max_store_read]; exact mStep x1 x2 x3 b m p

/-- The new normalizer over the chunk's score array. -/
theorem lStep (p : Fin 256) :
    k0_pay27 (scoreVec x1 x2 x3 b) m l (ix2 p (0 : Fin 1)) = lNew x1 x2 x3 b m l p := by
  rw [norm_read, alpha_read, mStep']
  unfold lNew
  refine congrArg (fun t => Ideal.exp (m (ix2 p (0 : Fin 1)) - mNew x1 x2 x3 b m p) * l (ix2 p (0 : Fin 1)) + t) (Finset.sum_congr rfl fun r _ => ?_)
  rw [weight_read, mStep', scoreVec_read]

/-- The new accumulator over the chunk's score array. -/
theorem aStep (p : Fin 256) (q : Fin 100) :
    k0_pay28 b (scoreVec x1 x2 x3 b) m a (ix2 p q) = aNew x1 x2 x3 b m a p q := by
  rw [acc_read, alpha_read, mStep']
  unfold aNew
  refine congrArg (fun t => Ideal.exp (m (ix2 p (0 : Fin 1)) - mNew x1 x2 x3 b m p) * a (ix2 p q) + t) (Finset.sum_congr rfl fun r _ => ?_)
  rw [weight_read, mStep', scoreVec_read]

/-! Each spelling is, operation for operation, the step over that score array. -/

theorem m1_eq : m1 x1 x2 x3 b m = k0_pay29 (scoreVec x1 x2 x3 b) m := rfl
theorem l1_eq : l1 x1 x2 x3 b m l = k0_pay27 (scoreVec x1 x2 x3 b) m l := rfl
theorem a1_eq : a1 x1 x2 x3 b m a = k0_pay28 b (scoreVec x1 x2 x3 b) m a := rfl
theorem m2_eq : m2 x1 x2 x3 b m = k0_pay29 (scoreVec x1 x2 x3 b) m := rfl
theorem l2_eq : l2 x1 x2 x3 b m l = k0_pay27 (scoreVec x1 x2 x3 b) m l := rfl
theorem a2_eq : a2 x1 x2 x3 b m a = k0_pay28 b (scoreVec x1 x2 x3 b) m a := rfl
theorem m3_eq : m3 x1 x2 x3 b m = k0_pay29 (scoreVec x1 x2 x3 b) m := rfl
theorem l3_eq : l3 x1 x2 x3 b m l = k0_pay27 (scoreVec x1 x2 x3 b) m l := rfl
theorem a3_eq : a3 x1 x2 x3 b m a = k0_pay28 b (scoreVec x1 x2 x3 b) m a := rfl
theorem m4_eq : m4 x1 x2 x3 b m = k0_pay29 (scoreVec x1 x2 x3 b) m := rfl
theorem l4_eq : l4 x1 x2 x3 b m l = k0_pay27 (scoreVec x1 x2 x3 b) m l := rfl
theorem a4_eq : a4 x1 x2 x3 b m a = k0_pay28 b (scoreVec x1 x2 x3 b) m a := rfl

end Step

end StepReads

/-! ## Every spelling is the one chunk step -/

open StepReads

theorem m1_apply (x1 : Vec Ideal S100x100 .bf16) (x2 x3 : Vec Ideal S1x100 .f32) (b : Vec Ideal S16x256x100 .f32) (m : Vec Ideal S256x1 .f32) (p : Fin 256) :
    m1 x1 x2 x3 b m (ix2 p (0 : Fin 1)) = mNew x1 x2 x3 b m p := by
  rw [m1_eq]; exact mStep x1 x2 x3 b m p
theorem l1_apply (x1 : Vec Ideal S100x100 .bf16) (x2 x3 : Vec Ideal S1x100 .f32) (b : Vec Ideal S16x256x100 .f32) (m l : Vec Ideal S256x1 .f32) (p : Fin 256) :
    l1 x1 x2 x3 b m l (ix2 p (0 : Fin 1)) = lNew x1 x2 x3 b m l p := by
  rw [l1_eq]; exact lStep x1 x2 x3 b m l p
theorem a1_apply (x1 : Vec Ideal S100x100 .bf16) (x2 x3 : Vec Ideal S1x100 .f32) (b : Vec Ideal S16x256x100 .f32) (m : Vec Ideal S256x1 .f32) (a : Vec Ideal S256x100 .f32) (p : Fin 256) (q : Fin 100) :
    a1 x1 x2 x3 b m a (ix2 p q) = aNew x1 x2 x3 b m a p q := by
  rw [a1_eq]; exact aStep x1 x2 x3 b m a p q

theorem m2_apply (x1 : Vec Ideal S100x100 .bf16) (x2 x3 : Vec Ideal S1x100 .f32) (b : Vec Ideal S16x256x100 .f32) (m : Vec Ideal S256x1 .f32) (p : Fin 256) :
    m2 x1 x2 x3 b m (ix2 p (0 : Fin 1)) = mNew x1 x2 x3 b m p := by
  rw [m2_eq]; exact mStep x1 x2 x3 b m p
theorem l2_apply (x1 : Vec Ideal S100x100 .bf16) (x2 x3 : Vec Ideal S1x100 .f32) (b : Vec Ideal S16x256x100 .f32) (m l : Vec Ideal S256x1 .f32) (p : Fin 256) :
    l2 x1 x2 x3 b m l (ix2 p (0 : Fin 1)) = lNew x1 x2 x3 b m l p := by
  rw [l2_eq]; exact lStep x1 x2 x3 b m l p
theorem a2_apply (x1 : Vec Ideal S100x100 .bf16) (x2 x3 : Vec Ideal S1x100 .f32) (b : Vec Ideal S16x256x100 .f32) (m : Vec Ideal S256x1 .f32) (a : Vec Ideal S256x100 .f32) (p : Fin 256) (q : Fin 100) :
    a2 x1 x2 x3 b m a (ix2 p q) = aNew x1 x2 x3 b m a p q := by
  rw [a2_eq]; exact aStep x1 x2 x3 b m a p q

theorem m3_apply (x1 : Vec Ideal S100x100 .bf16) (x2 x3 : Vec Ideal S1x100 .f32) (b : Vec Ideal S16x256x100 .f32) (m : Vec Ideal S256x1 .f32) (p : Fin 256) :
    m3 x1 x2 x3 b m (ix2 p (0 : Fin 1)) = mNew x1 x2 x3 b m p := by
  rw [m3_eq]; exact mStep x1 x2 x3 b m p
theorem l3_apply (x1 : Vec Ideal S100x100 .bf16) (x2 x3 : Vec Ideal S1x100 .f32) (b : Vec Ideal S16x256x100 .f32) (m l : Vec Ideal S256x1 .f32) (p : Fin 256) :
    l3 x1 x2 x3 b m l (ix2 p (0 : Fin 1)) = lNew x1 x2 x3 b m l p := by
  rw [l3_eq]; exact lStep x1 x2 x3 b m l p
theorem a3_apply (x1 : Vec Ideal S100x100 .bf16) (x2 x3 : Vec Ideal S1x100 .f32) (b : Vec Ideal S16x256x100 .f32) (m : Vec Ideal S256x1 .f32) (a : Vec Ideal S256x100 .f32) (p : Fin 256) (q : Fin 100) :
    a3 x1 x2 x3 b m a (ix2 p q) = aNew x1 x2 x3 b m a p q := by
  rw [a3_eq]; exact aStep x1 x2 x3 b m a p q

theorem m4_apply (x1 : Vec Ideal S100x100 .bf16) (x2 x3 : Vec Ideal S1x100 .f32) (b : Vec Ideal S16x256x100 .f32) (m : Vec Ideal S256x1 .f32) (p : Fin 256) :
    m4 x1 x2 x3 b m (ix2 p (0 : Fin 1)) = mNew x1 x2 x3 b m p := by
  rw [m4_eq]; exact mStep x1 x2 x3 b m p
theorem l4_apply (x1 : Vec Ideal S100x100 .bf16) (x2 x3 : Vec Ideal S1x100 .f32) (b : Vec Ideal S16x256x100 .f32) (m l : Vec Ideal S256x1 .f32) (p : Fin 256) :
    l4 x1 x2 x3 b m l (ix2 p (0 : Fin 1)) = lNew x1 x2 x3 b m l p := by
  rw [l4_eq]; exact lStep x1 x2 x3 b m l p
theorem a4_apply (x1 : Vec Ideal S100x100 .bf16) (x2 x3 : Vec Ideal S1x100 .f32) (b : Vec Ideal S16x256x100 .f32) (m : Vec Ideal S256x1 .f32) (a : Vec Ideal S256x100 .f32) (p : Fin 256) (q : Fin 100) :
    a4 x1 x2 x3 b m a (ix2 p q) = aNew x1 x2 x3 b m a p q := by
  rw [a4_eq]; exact aStep x1 x2 x3 b m a p q

end Cert.KernelIdeal.Steps

end
-- ==== Proof.PointStep.lean ====
/-
  One grid point keeps the invariant.

  A point applies the four chunk steps in order to the three buffers it finds. If the buffers of row `p` track the sums
  over the first `T₀` sequence positions and the point's four chunks hold positions `T₀ … T₀+63` of that row, they leave
  the buffers tracking the sums over the first `T₀ + 64`, under a real shift.
-/
import proofs.«108198_j24017457119662_2_alg».proof.Proof.Pieces
import proofs.«108198_j24017457119662_2_alg».proof.Proof.ChunkStep
import proofs.«108198_j24017457119662_2_alg».proof.Proof.StepReads
import Idealize.ShloMosaic.Lib.ValueIdx

noncomputable section

namespace Cert.KernelIdeal.Steps

open Cert.KernelIdeal Cert.KernelIdeal.Gen Idealize.ShloMosaic Idealize.ShloMosaic.ValueIdx OnlineSoftmax Cert.KernelIdeal.Pieces

variable (x0 : Vec Ideal S64x256x100 .f32) (x1 : Vec Ideal S100x100 .bf16) (x2 x3 : Vec Ideal S1x100 .f32)

/-- THE POINT STEP on one row. -/
theorem point_step (m0 l0 : Vec Ideal S256x1 .f32) (acc0 : Vec Ideal S256x100 .f32) (p : Fin 256)
    (σ : ℕ → ℝ) (φ : ℕ → Fin 100 → ℝ) (T0 : ℕ)
    (hσ : ∀ (n : ℕ) (hn : n + 16 ≤ 64) (r : Fin 16), cscore x1 x2 x3 (chunk x0 n hn) r p = ((σ (T0 + n + r.val) : ℝ) : EReal))
    (hφ : ∀ (n : ℕ) (hn : n + 16 ≤ 64) (r : Fin 16) (q : Fin 100), chunk x0 n hn (ix3 r p q) = ((φ (T0 + n + r.val) q : ℝ) : EReal))
    (h : Inv σ φ T0 (m0 (ix2 p (0 : Fin 1))) (l0 (ix2 p (0 : Fin 1))) (fun q => acc0 (ix2 p q))) :
    (∃ μ : ℝ, pm x0 x1 x2 x3 m0 (ix2 p (0 : Fin 1)) = (μ : EReal)) ∧
      Inv σ φ (T0 + 64) (pm x0 x1 x2 x3 m0 (ix2 p (0 : Fin 1))) (pl x0 x1 x2 x3 m0 l0 (ix2 p (0 : Fin 1)))
        (fun q => pa x0 x1 x2 x3 m0 acc0 (ix2 p q)) := by
  -- chunk 0
  have c1 := inv_chunk x1 x2 x3 (chunk x0 0 (by omega)) m0 l0 acc0 p σ φ T0
    (fun r => by rw [hσ 0 (by omega) r, Nat.add_zero]) (fun r q => by rw [hφ 0 (by omega) r q, Nat.add_zero]) h
  have s1 : Inv σ φ (T0 + 16) (pm1 x0 x1 x2 x3 m0 (ix2 p (0 : Fin 1)))
      (l1 x1 x2 x3 (chunk x0 0 (by omega)) m0 l0 (ix2 p (0 : Fin 1)))
      (fun q => a1 x1 x2 x3 (chunk x0 0 (by omega)) m0 acc0 (ix2 p q)) := by
    simp only [pm1, m1_apply, l1_apply, a1_apply]; exact c1.2
  -- chunk 1
  have c2 := inv_chunk x1 x2 x3 (chunk x0 16 (by omega)) (pm1 x0 x1 x2 x3 m0)
    (l1 x1 x2 x3 (chunk x0 0 (by omega)) m0 l0) (a1 x1 x2 x3 (chunk x0 0 (by omega)) m0 acc0) p σ φ (T0 + 16)
    (fun r => by rw [hσ 16 (by omega) r]) (fun r q => by rw [hφ 16 (by omega) r q]) s1
  have s2 : Inv σ φ (T0 + 16 + 16) (pm2 x0 x1 x2 x3 m0 (ix2 p (0 : Fin 1)))
      (l2 x1 x2 x3 (chunk x0 16 (by omega)) (pm1 x0 x1 x2 x3 m0) (l1 x1 x2 x3 (chunk x0 0 (by omega)) m0 l0) (ix2 p (0 : Fin 1)))
      (fun q => a2 x1 x2 x3 (chunk x0 16 (by omega)) (pm1 x0 x1 x2 x3 m0) (a1 x1 x2 x3 (chunk x0 0 (by omega)) m0 acc0) (ix2 p q)) := by
    simp only [pm2, m2_apply, l2_apply, a2_apply]; exact c2.2
  -- chunk 2
  have c3 := inv_chunk x1 x2 x3 (chunk x0 32 (by omega)) (pm2 x0 x1 x2 x3 m0)
    (l2 x1 x2 x3 (chunk x0 16 (by omega)) (pm1 x0 x1 x2 x3 m0) (l1 x1 x2 x3 (chunk x0 0 (by omega)) m0 l0))
    (a2 x1 x2 x3 (chunk x0 16 (by omega)) (pm1 x0 x1 x2 x3 m0) (a1 x1 x2 x3 (chunk x0 0 (by omega)) m0 acc0)) p σ φ (T0 + 16 + 16)
    (fun r => by rw [hσ 32 (by omega) r, show T0 + 32 + r.val = T0 + 16 + 16 + r.val by omega])
    (fun r q => by rw [hφ 32 (by omega) r q, show T0 + 32 + r.val = T0 + 16 + 16 + r.val by omega]) s2
  have s3 : Inv σ φ (T0 + 16 + 16 + 16) (pm3 x0 x1 x2 x3 m0 (ix2 p (0 : Fin 1)))
      (l3 x1 x2 x3 (chunk x0 32 (by omega)) (pm2 x0 x1 x2 x3 m0)
        (l2 x1 x2 x3 (chunk x0 16 (by omega)) (pm1 x0 x1 x2 x3 m0) (l1 x1 x2 x3 (chunk x0 0 (by omega)) m0 l0)) (ix2 p (0 : Fin 1)))
      (fun q => a3 x1 x2 x3 (chunk x0 32 (by omega)) (pm2 x0 x1 x2 x3 m0)
        (a2 x1 x2 x3 (chunk x0 16 (by omega)) (pm1 x0 x1 x2 x3 m0) (a1 x1 x2 x3 (chunk x0 0 (by omega)) m0 acc0)) (ix2 p q)) := by
    simp only [pm3, m3_apply, l3_apply, a3_apply]; exact c3.2
  -- chunk 3
  have c4 := inv_chunk x1 x2 x3 (chunk x0 48 (by omega)) (pm3 x0 x1 x2 x3 m0)
    (l3 x1 x2 x3 (chunk x0 32 (by omega)) (pm2 x0 x1 x2 x3 m0)
      (l2 x1 x2 x3 (chunk x0 16 (by omega)) (pm1 x0 x1 x2 x3 m0) (l1 x1 x2 x3 (chunk x0 0 (by omega)) m0 l0)))
    (a3 x1 x2 x3 (chunk x0 32 (by omega)) (pm2 x0 x1 x2 x3 m0)
      (a2 x1 x2 x3 (chunk x0 16 (by omega)) (pm1 x0 x1 x2 x3 m0) (a1 x1 x2 x3 (chunk x0 0 (by omega)) m0 acc0))) p σ φ (T0 + 16 + 16 + 16)
    (fun r => by rw [hσ 48 (by omega) r, show T0 + 48 + r.val = T0 + 16 + 16 + 16 + r.val by omega])
    (fun r q => by rw [hφ 48 (by omega) r q, show T0 + 48 + r.val = T0 + 16 + 16 + 16 + r.val by omega]) s3
  have e64 : T0 + 64 = T0 + 16 + 16 + 16 + 16 := by omega
  rw [e64]
  refine ⟨?_, ?_⟩
  · simp only [pm, m4_apply]; exact c4.1
  · simp only [pm, pl, pa, m4_apply, l4_apply, a4_apply]; exact c4.2

end Cert.KernelIdeal.Steps

end
-- ==== Proof.PointInv.lean ====
/-
  The three carried buffers after every grid point.

  By induction on the point: at the first point of a batch tile the buffers are reset and four chunks are absorbed; at
  every later point of the tile four more. So after point `n` (sequence tile `n % 4` of batch tile `n / 4`) row `p` of the
  buffers tracks, under a real shift, the sums over the first `64·(n % 4) + 64` sequence positions of batch row
  `256·(n / 4) + p`; after the tile's last point, over all 256.
-/
import proofs.«108198_j24017457119662_2_alg».proof.Proof.Gen.KernelIdeal.Frame
import proofs.«108198_j24017457119662_2_alg».proof.Proof.Blocks
import proofs.«108198_j24017457119662_2_alg».proof.Proof.PointStep

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PointInv

open Cert.KernelIdeal Cert.KernelIdeal.Gen Cert.KernelIdeal.Steps Cert.KernelIdeal.Pieces Cert.KernelIdeal.Blocks OnlineSoftmax

variable (m : (ℓ : Loc nD τ sig) → Buf (Elt Ideal) ℓ)

/-! ## Each case's three buffers -/

/-- The first point of a batch tile. -/
theorem at_A (c : Dev nD) (n : ℕ) (hn : n < cfg0.N) (h0 : n % 4 = 0) (h1 : ¬n % 4 = 3) :
    (outsAt0 m c n hn).2.1 = pm (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (k0_pay2 (F := Ideal))
    ∧ (outsAt0 m c n hn).2.2.1 = pl (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (k0_pay2 (F := Ideal)) (k0_pay3 (F := Ideal))
    ∧ (outsAt0 m c n hn).2.2.2 = pa (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (k0_pay2 (F := Ideal)) (k0_pay4 (F := Ideal)) := by
  rw [show outsAt0 m c n hn = _ from outsAt0_A m c (⟨n, hn⟩ : Fin cfg0.N) h0 h1]
  exact ⟨sout_A_0 (x0 := iblk m c 0 (⟨n, hn⟩ : Fin cfg0.N)) (x1 := iblk m c 1 (⟨n, hn⟩ : Fin cfg0.N)) (x2 := iblk m c 2 (⟨n, hn⟩ : Fin cfg0.N)) (x3 := iblk m c 3 (⟨n, hn⟩ : Fin cfg0.N)) (c := c) (i := grid0.coords (⟨n, hn⟩ : Fin cfg0.N)) (arg2 := ms0_0 (⟨n, hn⟩ : Fin cfg0.N)) (harg2 := hs0_0 (⟨n, hn⟩ : Fin cfg0.N)) (arg3 := ms0_1 (⟨n, hn⟩ : Fin cfg0.N)) (harg3 := hs0_1 (⟨n, hn⟩ : Fin cfg0.N)) (arg4 := ms0_2 (⟨n, hn⟩ : Fin cfg0.N)) (harg4 := hs0_2 (⟨n, hn⟩ : Fin cfg0.N)) (arg5 := ms0_3 (⟨n, hn⟩ : Fin cfg0.N)) (harg5 := hs0_3 (⟨n, hn⟩ : Fin cfg0.N)) (arg6 := ms0_4 (⟨n, hn⟩ : Fin cfg0.N)) (harg6 := hs0_4 (⟨n, hn⟩ : Fin cfg0.N)) (arg7 := scM0_0) (harg7 := Memref.isWhole_whole _) (arg8 := scM0_1) (harg8 := Memref.isWhole_whole _) (arg9 := scM0_2) (harg9 := Memref.isWhole_whole _) (hc0 := (hcond0_0 (⟨n, hn⟩ : Fin cfg0.N)).mpr h0) (hc1 := fun h => h1 ((hcond0_1 (⟨n, hn⟩ : Fin cfg0.N)).mp h)),
    sout_A_1 (x0 := iblk m c 0 (⟨n, hn⟩ : Fin cfg0.N)) (x1 := iblk m c 1 (⟨n, hn⟩ : Fin cfg0.N)) (x2 := iblk m c 2 (⟨n, hn⟩ : Fin cfg0.N)) (x3 := iblk m c 3 (⟨n, hn⟩ : Fin cfg0.N)) (c := c) (i := grid0.coords (⟨n, hn⟩ : Fin cfg0.N)) (arg2 := ms0_0 (⟨n, hn⟩ : Fin cfg0.N)) (harg2 := hs0_0 (⟨n, hn⟩ : Fin cfg0.N)) (arg3 := ms0_1 (⟨n, hn⟩ : Fin cfg0.N)) (harg3 := hs0_1 (⟨n, hn⟩ : Fin cfg0.N)) (arg4 := ms0_2 (⟨n, hn⟩ : Fin cfg0.N)) (harg4 := hs0_2 (⟨n, hn⟩ : Fin cfg0.N)) (arg5 := ms0_3 (⟨n, hn⟩ : Fin cfg0.N)) (harg5 := hs0_3 (⟨n, hn⟩ : Fin cfg0.N)) (arg6 := ms0_4 (⟨n, hn⟩ : Fin cfg0.N)) (harg6 := hs0_4 (⟨n, hn⟩ : Fin cfg0.N)) (arg7 := scM0_0) (harg7 := Memref.isWhole_whole _) (arg8 := scM0_1) (harg8 := Memref.isWhole_whole _) (arg9 := scM0_2) (harg9 := Memref.isWhole_whole _) (hc0 := (hcond0_0 (⟨n, hn⟩ : Fin cfg0.N)).mpr h0) (hc1 := fun h => h1 ((hcond0_1 (⟨n, hn⟩ : Fin cfg0.N)).mp h)),
    sout_A_2 (x0 := iblk m c 0 (⟨n, hn⟩ : Fin cfg0.N)) (x1 := iblk m c 1 (⟨n, hn⟩ : Fin cfg0.N)) (x2 := iblk m c 2 (⟨n, hn⟩ : Fin cfg0.N)) (x3 := iblk m c 3 (⟨n, hn⟩ : Fin cfg0.N)) (c := c) (i := grid0.coords (⟨n, hn⟩ : Fin cfg0.N)) (arg2 := ms0_0 (⟨n, hn⟩ : Fin cfg0.N)) (harg2 := hs0_0 (⟨n, hn⟩ : Fin cfg0.N)) (arg3 := ms0_1 (⟨n, hn⟩ : Fin cfg0.N)) (harg3 := hs0_1 (⟨n, hn⟩ : Fin cfg0.N)) (arg4 := ms0_2 (⟨n, hn⟩ : Fin cfg0.N)) (harg4 := hs0_2 (⟨n, hn⟩ : Fin cfg0.N)) (arg5 := ms0_3 (⟨n, hn⟩ : Fin cfg0.N)) (harg5 := hs0_3 (⟨n, hn⟩ : Fin cfg0.N)) (arg6 := ms0_4 (⟨n, hn⟩ : Fin cfg0.N)) (harg6 := hs0_4 (⟨n, hn⟩ : Fin cfg0.N)) (arg7 := scM0_0) (harg7 := Memref.isWhole_whole _) (arg8 := scM0_1) (harg8 := Memref.isWhole_whole _) (arg9 := scM0_2) (harg9 := Memref.isWhole_whole _) (hc0 := (hcond0_0 (⟨n, hn⟩ : Fin cfg0.N)).mpr h0) (hc1 := fun h => h1 ((hcond0_1 (⟨n, hn⟩ : Fin cfg0.N)).mp h))⟩

/-- A middle point. -/
theorem at_B (c : Dev nD) (t : Fin cfg0.N) (h0 : ¬t.val % 4 = 0) (h1 : ¬t.val % 4 = 3) :
    (outsAt0 m c t.val t.isLt).2.1 = pm (iblk m c 0 t) (iblk m c 1 t) (iblk m c 2 t) (iblk m c 3 t) (outsAt0 m c (t.val - 1) (Nat.lt_of_le_of_lt (Nat.sub_le _ _) t.isLt)).2.1
    ∧ (outsAt0 m c t.val t.isLt).2.2.1 = pl (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = pa (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2 := by
  rw [outsAt0_B m c t h0 h1]
  refine ⟨?_, ?_, ?_⟩ <;> dsimp only
  · exact sout_B_0 (x0 := iblk m c 0 t) (x1 := iblk m c 1 t) (x2 := iblk m c 2 t) (x3 := iblk m c 3 t) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := fun h => h1 ((hcond0_1 t).mp h))
  · exact sout_B_1 (x0 := iblk m c 0 t) (x1 := iblk m c 1 t) (x2 := iblk m c 2 t) (x3 := iblk m c 3 t) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := fun h => h1 ((hcond0_1 t).mp h))
  · exact sout_B_2 (x0 := iblk m c 0 t) (x1 := iblk m c 1 t) (x2 := iblk m c 2 t) (x3 := iblk m c 3 t) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := fun h => h1 ((hcond0_1 t).mp h))

/-- The last point of a batch tile, which also leaves the quotient in the output block. -/
theorem at_C (c : Dev nD) (t : Fin cfg0.N) (h0 : ¬t.val % 4 = 0) (h1 : t.val % 4 = 3) :
    (outsAt0 m c t.val t.isLt).1 = k0_pay1 (pa (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2) (pl (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1)
    ∧ (outsAt0 m c t.val t.isLt).2.1 = pm (iblk m c 0 t) (iblk m c 1 t) (iblk m c 2 t) (iblk m c 3 t) (outsAt0 m c (t.val - 1) (Nat.lt_of_le_of_lt (Nat.sub_le _ _) t.isLt)).2.1
    ∧ (outsAt0 m c t.val t.isLt).2.2.1 = pl (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = pa (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2 := by
  rw [outsAt0_C m c t h0 h1]
  refine ⟨?_, ?_, ?_, ?_⟩ <;> dsimp only
  · exact out_C_4 (x0 := iblk m c 0 t) (x1 := iblk m c 1 t) (x2 := iblk m c 2 t) (x3 := iblk m c 3 t) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1)
  · exact sout_C_0 (x0 := iblk m c 0 t) (x1 := iblk m c 1 t) (x2 := iblk m c 2 t) (x3 := iblk m c 3 t) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1)
  · exact sout_C_1 (x0 := iblk m c 0 t) (x1 := iblk m c 1 t) (x2 := iblk m c 2 t) (x3 := iblk m c 3 t) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1)
  · exact sout_C_2 (x0 := iblk m c 0 t) (x1 := iblk m c 1 t) (x2 := iblk m c 2 t) (x3 := iblk m c 3 t) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1)

/-- The point before point `k + 1` is point `k`. -/
theorem prev_eq (c : Dev nD) (j k : ℕ) (hj : j = k) (h1 : j < cfg0.N) (h2 : k < cfg0.N) : outsAt0 m c j h1 = outsAt0 m c k h2 := by
  subst hj; rfl

/-! ## The sums a row tracks, and what a point's chunks hold -/

/-- The scores of batch row `b` along the sequence, as a sequence of reals (zero past the end). -/
def sg (c : Dev nD) (b : Fin 4096) : ℕ → ℝ := fun s =>
  if h : s < 256 then Cert.Pool.scoreR (m ((c : Thread nD τ).loc main_arg0)) (m ((c : Thread nD τ).loc main_arg2)) (m ((c : Thread nD τ).loc main_arg3)) (m ((c : Thread nD τ).loc main_arg4)) ⟨s, h⟩ b else 0

/-- The features of batch row `b` along the sequence. -/
def ph (c : Dev nD) (b : Fin 4096) : ℕ → Fin 100 → ℝ := fun s q =>
  if h : s < 256 then Cert.Pool.feat (m ((c : Thread nD τ).loc main_arg0)) ⟨s, h⟩ b q else 0

/-- A point's chunk scores are the row's scores at the point's sequence positions. -/
theorem data_σ (c : Dev nD) (t : Fin cfg0.N) (p : Fin 256) (b : Fin 4096) (hb : b.val = 256 * (t.val / 4) + p.val)
    (n : ℕ) (hn : n + 16 ≤ 64) (r : Fin 16) :
    cscore (iblk m c 1 t : Vec Ideal S100x100 .bf16) (iblk m c 2 t : Vec Ideal S1x100 .f32) (iblk m c 3 t : Vec Ideal S1x100 .f32)
        (chunk (iblk m c 0 t : Vec Ideal S64x256x100 .f32) n hn) r p
      = ((sg m c b (64 * (t.val % 4) + n + r.val) : ℝ) : EReal) := by
  have hlt : 64 * (t.val % 4) + n + r.val < 256 := by have := r.isLt; omega
  rw [cscore_eq m c t n hn r p ⟨_, hlt⟩ b rfl hb, Cert.Pool.score_eq]
  unfold sg
  rw [dif_pos hlt]

/-- A point's chunk features are the row's features there (the inputs being finite). -/
theorem data_φ (c : Dev nD) (hf : ∀ i, ∃ r : ℝ, (m ((c : Thread nD τ).loc main_arg0)) i = (r : EReal)) (t : Fin cfg0.N) (p : Fin 256) (b : Fin 4096)
    (hb : b.val = 256 * (t.val / 4) + p.val) (n : ℕ) (hn : n + 16 ≤ 64) (r : Fin 16) (q : Fin 100) :
    chunk (iblk m c 0 t : Vec Ideal S64x256x100 .f32) n hn (ix3 r p q) = ((ph m c b (64 * (t.val % 4) + n + r.val) q : ℝ) : EReal) := by
  have hlt : 64 * (t.val % 4) + n + r.val < 256 := by have := r.isLt; omega
  rw [chunk_feat m c t n hn r p q ⟨_, hlt⟩ b rfl hb, Cert.Pool.feat_eq _ hf]
  unfold ph
  rw [dif_pos hlt]

/-- The reset values: `-∞`, `0`, `0`. -/
theorem pay2_at (y : S256x1.Idx) : (k0_pay2 (F := Ideal)) y = ⊥ := by
  show shapeCast S256x1 (broadcast S256x1 (Scalar.ofBits (F := Ideal) .f32 0xFF800000#32)) shapeCasts_S256x1_S256x1 y = ⊥
  rw [shapeCast_self]
  show Ideal.ofBits .f32 0xFF800000#32 = ⊥
  simp [Ideal.ofBits, Ideal.ieee]
theorem pay3_at (y : S256x1.Idx) : (k0_pay3 (F := Ideal)) y = 0 := by
  show shapeCast S256x1 (broadcast S256x1 (Scalar.ofBits (F := Ideal) .f32 0x00000000#32)) shapeCasts_S256x1_S256x1 y = 0
  rw [shapeCast_self]
  exact Ideal.ofBits_zero_f32
theorem pay4_at (y : S256x100.Idx) : (k0_pay4 (F := Ideal)) y = 0 := by
  show shapeCast S256x100 (broadcast S256x100 (Scalar.ofBits (F := Ideal) .f32 0x00000000#32)) shapeCasts_S256x100_S256x100 y = 0
  rw [shapeCast_self]
  exact Ideal.ofBits_zero_f32

/-- One point's four chunks, on the point's own blocks. -/
theorem step_at (c : Dev nD) (hf : ∀ i, ∃ r : ℝ, (m ((c : Thread nD τ).loc main_arg0)) i = (r : EReal)) (t : Fin cfg0.N) (p : Fin 256) (b : Fin 4096)
    (hb : b.val = 256 * (t.val / 4) + p.val) (m0 l0 : Vec Ideal S256x1 .f32) (a0 : Vec Ideal S256x100 .f32)
    (h : Inv (sg m c b) (ph m c b) (64 * (t.val % 4)) (m0 (ix2 p (0 : Fin 1))) (l0 (ix2 p (0 : Fin 1))) (fun q => a0 (ix2 p q))) :
    (∃ μ : ℝ, pm (iblk m c 0 t) (iblk m c 1 t) (iblk m c 2 t) (iblk m c 3 t) m0 (ix2 p (0 : Fin 1)) = (μ : EReal)) ∧
      Inv (sg m c b) (ph m c b) (64 * (t.val % 4) + 64) (pm (iblk m c 0 t) (iblk m c 1 t) (iblk m c 2 t) (iblk m c 3 t) m0 (ix2 p (0 : Fin 1)))
        (pl (iblk m c 0 t) (iblk m c 1 t) (iblk m c 2 t) (iblk m c 3 t) m0 l0 (ix2 p (0 : Fin 1))) (fun q => pa (iblk m c 0 t) (iblk m c 1 t) (iblk m c 2 t) (iblk m c 3 t) m0 a0 (ix2 p q)) :=
  point_step (iblk m c 0 t) (iblk m c 1 t) (iblk m c 2 t) (iblk m c 3 t) m0 l0 a0 p (sg m c b) (ph m c b) (64 * (t.val % 4))
    (fun n hn r => data_σ m c t p b hb n hn r) (fun n hn r q => data_φ m c hf t p b hb n hn r q) h

/-! ## The invariant after every point -/

/-- AFTER POINT `n`, row `p` of the three buffers tracks the sums over the first `64·(n % 4) + 64` sequence positions of
    batch row `256·(n / 4) + p`, under a real shift. -/
theorem inv_at (c : Dev nD) (hf : ∀ i, ∃ r : ℝ, (m ((c : Thread nD τ).loc main_arg0)) i = (r : EReal)) :
    ∀ (n : ℕ) (hn : n < cfg0.N) (p : Fin 256) (b : Fin 4096), b.val = 256 * (n / 4) + p.val →
      (∃ μ : ℝ, (outsAt0 m c n hn).2.1 (ix2 p (0 : Fin 1)) = (μ : EReal)) ∧
        Inv (sg m c b) (ph m c b) (64 * (n % 4) + 64) ((outsAt0 m c n hn).2.1 (ix2 p (0 : Fin 1)))
          ((outsAt0 m c n hn).2.2.1 (ix2 p (0 : Fin 1))) (fun q => (outsAt0 m c n hn).2.2.2 (ix2 p q))
  | n, hn, p, b, hb => by
    by_cases h0 : n % 4 = 0
    · -- the first point of a tile: from the reset
      obtain ⟨e0, e1, e2⟩ := at_A m c n hn h0 (by omega)
      rw [e0, e1, e2]
      have start : Inv (sg m c b) (ph m c b) (64 * ((⟨n, hn⟩ : Fin cfg0.N).val % 4)) ((k0_pay2 (F := Ideal)) (ix2 p (0 : Fin 1)))
          ((k0_pay3 (F := Ideal)) (ix2 p (0 : Fin 1))) (fun q => (k0_pay4 (F := Ideal)) (ix2 p q)) := by
        simp only [pay2_at, pay3_at, pay4_at]
        rw [show 64 * ((⟨n, hn⟩ : Fin cfg0.N).val % 4) = 0 from by show 64 * (n % 4) = 0; omega]
        exact inv_zero _ _
      exact step_at m c hf ⟨n, hn⟩ p b hb (k0_pay2 (F := Ideal)) (k0_pay3 (F := Ideal)) (k0_pay4 (F := Ideal)) start
    · -- a later point: from what the point before left
      obtain ⟨k, rfl⟩ : ∃ k, n = k + 1 := ⟨n - 1, by omega⟩
      have ih := inv_at c hf k (Nat.lt_of_succ_lt hn) p b (by omega)
      have start : Inv (sg m c b) (ph m c b) (64 * ((⟨k + 1, hn⟩ : Fin cfg0.N).val % 4))
          ((outsAt0 m c k (Nat.lt_of_succ_lt hn)).2.1 (ix2 p (0 : Fin 1))) ((outsAt0 m c k (Nat.lt_of_succ_lt hn)).2.2.1 (ix2 p (0 : Fin 1))) (fun q => (outsAt0 m c k (Nat.lt_of_succ_lt hn)).2.2.2 (ix2 p q)) := by
        rw [show 64 * ((⟨k + 1, hn⟩ : Fin cfg0.N).val % 4) = 64 * (k % 4) + 64 from by show 64 * ((k + 1) % 4) = _; omega]
        exact ih.2
      have hp : outsAt0 m c ((⟨k + 1, hn⟩ : Fin cfg0.N).val - 1) (Nat.lt_of_le_of_lt (Nat.sub_le _ _) (⟨k + 1, hn⟩ : Fin cfg0.N).isLt)
          = (outsAt0 m c k (Nat.lt_of_succ_lt hn)) := prev_eq m c ((⟨k + 1, hn⟩ : Fin cfg0.N).val - 1) k (Nat.add_sub_cancel k 1) _ _
      by_cases h1 : (k + 1) % 4 = 3
      · obtain ⟨-, e0, e1, e2⟩ := at_C m c ⟨k + 1, hn⟩ h0 h1
        rw [hp] at e0 e1 e2
        rw [show (outsAt0 m c (k + 1) hn).2.1 = _ from e0, show (outsAt0 m c (k + 1) hn).2.2.1 = _ from e1,
          show (outsAt0 m c (k + 1) hn).2.2.2 = _ from e2]
        exact step_at m c hf ⟨k + 1, hn⟩ p b hb _ _ _ start
      · obtain ⟨e0, e1, e2⟩ := at_B m c ⟨k + 1, hn⟩ h0 h1
        rw [hp] at e0 e1 e2
        rw [show (outsAt0 m c (k + 1) hn).2.1 = _ from e0, show (outsAt0 m c (k + 1) hn).2.2.1 = _ from e1,
          show (outsAt0 m c (k + 1) hn).2.2.2 = _ from e2]
        exact step_at m c hf ⟨k + 1, hn⟩ p b hb _ _ _ start

end Cert.KernelIdeal.PointInv

end
-- ==== Proof.OutBlock.lean ====
/-
  The output block's geometry.

  The result array `[1, 4096, 100]` is written back in blocks `[1, 256, 100]`: grid point `t` holds block `t / 4` of the row axis
  and writes it back at the points `≡ 3 (mod 4)`. What is stored is the accumulator divided by the normalizer, row by row; and
  every entry of the array lies in the block of a point that writes back.
-/
import proofs.«108198_j24017457119662_2_alg».proof.Proof.Gen.KernelIdeal.Frame
import Idealize.ShloMosaic.Lib.Pipeline.Value
import Idealize.ShloMosaic.Lib.ValueIdx

set_option maxRecDepth 16384

noncomputable section

namespace Cert.KernelIdeal.OutBlock

open Cert.KernelIdeal Cert.KernelIdeal.Gen Idealize.ShloMosaic Idealize.ShloMosaic.TcCoe Idealize.SL.Sem Idealize.ShloMosaic.ValueIdx

/-- The output window's block index at grid point `t`, decided over the grid: block `t / 4` of the row axis. -/
theorem idx4_facts : ∀ t : Fin cfg0.N, win0_4.index t 0 = 0 ∧ win0_4.index t 1 = t.val / 4 ∧ win0_4.index t 2 = 0 :=
  (by decide +kernel : ∀ t : Fin grid0.N, win0_4.index t 0 = 0 ∧ win0_4.index t 1 = t.val / 4 ∧ win0_4.index t 2 = 0)

/-- The stored block at `(z, p, q)`: the accumulator's entry `(p, q)` divided by the normalizer of row `p`. -/
theorem pay1_at (A : Vec Ideal S256x100 .f32) (L : Vec Ideal S256x1 .f32) (z : Fin 1) (p : Fin 256) (q : Fin 100) :
    k0_pay1 A L (ix3 z p q) = Ideal.div (A (ix2 p q)) (L (ix2 p (0 : Fin 1))) := by
  unfold k0_pay1
  refine (shapeCast_apply _ _ (ix3 z p q) (ix2 p q) (by
    have hz : z.val = 0 := by omega
    rw [Shape.rowMajor_val_two, Shape.rowMajor_val_three]
    show p.val * 100 + q.val = (z.val * 256 + p.val) * 100 + q.val
    rw [hz]; omega)).trans ?_
  rw [divf_apply]
  refine congrArg (Ideal.div (A (ix2 p q))) ?_
  exact broadcastTo_apply L _ (ix2 p q) (ix2 p (0 : Fin 1)) (fun ax => match ax with
    | ⟨0, _⟩ => rfl
    | ⟨1, _⟩ => rfl)

/-- An index of the array is in point `t`'s block iff each coordinate is in the block's range on its axis. -/
theorem mem_blk4 (t : Fin cfg0.N) (i : S1x4096x100.Idx) :
    i ∈ ((cfg0.win 4).blk t).view.set ↔ ∀ a : Fin 3, win0_4.index t a * S1x256x100.size a ≤ (i a).val ∧ (i a).val < win0_4.index t a * S1x256x100.size a + S1x256x100.size a := by
  show i ∈ ((View.whole main_v2).slice (win0_4.rect t)).set ↔ _
  rw [View.set_slice_whole, Rect.mem_set_unit]
  exact Iff.rfl

/-- Every entry of the result array is in the block of a point that writes back: row `ρ` is in block `ρ / 256`, which the
    point `4 · (ρ / 256) + 3` holds and writes back. -/
theorem cover4 (i : S1x4096x100.Idx) : ∃ t : Fin cfg0.N, (cfg0.win 4).flush t = true ∧ i ∈ ((cfg0.win 4).blk t).view.set := by
  have hi0 : (i 0).val < 1 := (i 0).isLt
  have hi1 : (i 1).val < 4096 := (i 1).isLt
  have hi2 : (i 2).val < 100 := (i 2).isLt
  have hN : cfg0.N = 64 := N_0
  obtain ⟨t, ht⟩ : ∃ t : Fin cfg0.N, t.val = 4 * ((i 1).val / 256) + 3 := ⟨⟨4 * ((i 1).val / 256) + 3, by omega⟩, rfl⟩
  refine ⟨t, (flush0_4 t).2 (by omega), ?_⟩
  rw [mem_blk4]
  obtain ⟨e0, e1, e2⟩ := idx4_facts t
  intro a
  match a with
  | ⟨0, _⟩ => show win0_4.index t 0 * 1 ≤ (i 0).val ∧ (i 0).val < win0_4.index t 0 * 1 + 1; omega
  | ⟨1, _⟩ => show win0_4.index t 1 * 256 ≤ (i 1).val ∧ (i 1).val < win0_4.index t 1 * 256 + 256; omega
  | ⟨2, _⟩ => show win0_4.index t 2 * 100 ≤ (i 2).val ∧ (i 2).val < win0_4.index t 2 * 100 + 100; omega

end Cert.KernelIdeal.OutBlock

end
-- ==== Proof.Final.lean ====
/-
  The result array after the run.

  Only the last point of each batch tile writes its output block back, and those sixteen blocks tile the [1,4096,100]
  result. What such a point writes, at row `p` and feature `q`, is the accumulator over the normalizer of row `p`, which by
  then track the sums over all 256 sequence positions of batch row `256·(t / 4) + p`: the softmax-weighted average. So
  the result array ends holding the specification, entry by entry.
-/
import proofs.«108198_j24017457119662_2_alg».proof.Proof.Gen.KernelIdeal.Value
import proofs.«108198_j24017457119662_2_alg».proof.Proof.PointInv
import proofs.«108198_j24017457119662_2_alg».proof.Proof.OutBlock

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Steps Cert.KernelIdeal.Pieces Cert.KernelIdeal.Blocks
  Cert.KernelIdeal.PointInv Cert.KernelIdeal.OutBlock OnlineSoftmax

variable (m : (ℓ : Loc nD τ sig) → Buf (Elt Ideal) ℓ) (ρ : Dev nD → PrngReg)

/-- The sums over the first 256 positions are the sums over the whole sequence. -/
theorem sum_sg (c : Dev nD) (b : Fin 4096) :
    ∑ s ∈ Finset.range 256, Real.exp (sg m c b s)
      = ∑ s : Fin 256, Real.exp (Cert.Pool.scoreR (m ((c : Thread nD τ).loc main_arg0)) (m ((c : Thread nD τ).loc main_arg2)) (m ((c : Thread nD τ).loc main_arg3)) (m ((c : Thread nD τ).loc main_arg4)) s b) := by
  rw [Finset.sum_range]
  refine Finset.sum_congr rfl fun s _ => ?_
  unfold sg
  rw [dif_pos s.isLt]

theorem sum_ph (c : Dev nD) (b : Fin 4096) (q : Fin 100) :
    ∑ s ∈ Finset.range 256, Real.exp (sg m c b s) * ph m c b s q
      = ∑ s : Fin 256, Real.exp (Cert.Pool.scoreR (m ((c : Thread nD τ).loc main_arg0)) (m ((c : Thread nD τ).loc main_arg2)) (m ((c : Thread nD τ).loc main_arg3)) (m ((c : Thread nD τ).loc main_arg4)) s b) * Cert.Pool.feat (m ((c : Thread nD τ).loc main_arg0)) s b q := by
  rw [Finset.sum_range]
  refine Finset.sum_congr rfl fun s _ => ?_
  unfold sg ph
  rw [dif_pos s.isLt, dif_pos s.isLt]

/-- The specification of the argument arrays, as contents of the result array. -/
abbrev result (c : Dev nD) : Buf (Elt Ideal) ((c : Thread nD τ).loc main_v2) :=
  Cert.Pool.G (m ((c : Thread nD τ).loc main_arg0)) (m ((c : Thread nD τ).loc main_arg2)) (m ((c : Thread nD τ).loc main_arg3)) (m ((c : Thread nD τ).loc main_arg4))

/-- WHAT A FLUSHING POINT WRITES BACK is its block of the specification. -/
theorem flushed4_eq (c : Dev nD) (hf : ∀ i, ∃ r : ℝ, (m ((c : Thread nD τ).loc main_arg0)) i = (r : EReal)) (t : Fin cfg0.N)
    (hfl : (cfg0.win 4).flush t = true) :
    (dats m 0 c).flushed 4 t = ((cfg0.win 4).blk t).view.read (Elt Ideal) (result m c) := by
  have h3 : t.val % 4 = 3 := (flush0_4 t).mp hfl
  have h0 : ¬t.val % 4 = 0 := by omega
  have hN : t.val < 64 := lt_of_lt_of_eq t.isLt (show cfg0.N = 64 from N_0)
  obtain ⟨e1, e0, e2, e3⟩ := at_C m c t h0 h3
  obtain ⟨i0, i1, i2⟩ := idx4_facts t
  rw [Cert.KernelIdeal.Value.flushed4]
  funext j
  obtain ⟨z, p, q, rfl⟩ : ∃ (z : Fin 1) (p : Fin 256) (q : Fin 100), j = ix3 z p q := ⟨j 0, j 1, j 2, eq_ix3 j⟩
  show (outsAt0 m c t.val t.isLt).1 (ix3 z p q) = result m c (((cfg0.win 4).blk t).view.emb (ix3 z p q))
  rw [e1, pay1_at, ← e2, ← e3]
  have hbl : 256 * (t.val / 4) + p.val < 4096 := by have := p.isLt; omega
  obtain ⟨hμ, hinv⟩ := inv_at m c hf t.val t.isLt p ⟨256 * (t.val / 4) + p.val, hbl⟩ rfl
  rw [show 64 * (t.val % 4) + 64 = 256 from by omega] at hinv
  have hW : 0 < ∑ s ∈ Finset.range 256, Real.exp (sg m c ⟨256 * (t.val / 4) + p.val, hbl⟩ s) :=
    Finset.sum_pos (fun s _ => Real.exp_pos _) ⟨0, Finset.mem_range.mpr (by omega)⟩
  rw [Tracks.div hμ hinv.1 (hinv.2 q) hW, sum_sg, sum_ph]
  have hb' : ((cfg0.win 4).blk t).view.emb (ix3 z p q) 1 = (⟨256 * (t.val / 4) + p.val, hbl⟩ : Fin 4096) :=
    Fin.ext (by show win0_4.index t 1 * 256 + 1 * p.val = 256 * (t.val / 4) + p.val; rw [i1]; omega)
  have hq' : ((cfg0.win 4).blk t).view.emb (ix3 z p q) 2 = q :=
    Fin.ext (by show win0_4.index t 2 * 100 + 1 * q.val = q.val; rw [i2]; omega)
  show _ = ((Cert.Pool.pooled (m ((c : Thread nD τ).loc main_arg0)) (m ((c : Thread nD τ).loc main_arg2)) (m ((c : Thread nD τ).loc main_arg3)) (m ((c : Thread nD τ).loc main_arg4))
    (((cfg0.win 4).blk t).view.emb (ix3 z p q) 1) (((cfg0.win 4).blk t).view.emb (ix3 z p q) 2) : ℝ) : EReal)
  rw [hb', hq']
  rfl

/-- THE RESULT ARRAY after the run is the specification. -/
theorem final4 (c : Dev nD) (hf : ∀ i, ∃ r : ℝ, (m ((c : Thread nD τ).loc main_arg0)) i = (r : EReal)) :
    (dats m 0 c).arrAt 4 cfg0.N = result m c :=
  (dats m 0 c).arrAt_eq_of_cover 4 (result m c) (fun t hfl => flushed4_eq m c hf t hfl) cover4

/-- The run, read: the result array at the specification of the argument arrays, the arguments unchanged. -/
theorem run (hf : ∀ (c : Dev nD) i, ∃ r : ℝ, (m ((c : Thread nD τ).loc main_arg0)) i = (r : EReal)) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c (hf c)), (h c).2⟩)
    (Cert.KernelIdeal.Value.run_blocks m ρ)

end Cert.KernelIdeal.Final

end
-- ==== Proof.RefIsG.lean ====
/-
  The reference program computes the specification.

  Read one operation at a time at a result index (0, b, q), the reference is: the hidden unit
  tanh (∑_d f(s,b,d) · W(d,e) + bias(e)), the score tanh (∑_e h(s,b,e) · c(e)) — a real number —, the maximum M(b) of
  the 256 scores of row b taken from −∞ — a real number, being one of them —, the exponentials e^{σ(s,b) − M(b)}, their
  sum L(b), the weights e^{σ(s,b) − M(b)} / L(b), and the sum over s of f(s,b,q) times the weight. That is the two-pass
  form of the softmax-weighted average, which does not depend on the shift M(b).
-/
import proofs.«108198_j24017457119662_2_alg».proof.Proof.Gen.ReferenceIdeal.Read
import proofs.«108198_j24017457119662_2_alg».proof.Proof.Spec
import proofs.«108198_j24017457119662_2_alg».proof.Proof.LibOnlineSoftmax
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- The hidden stage at (s, b, e) is the specification's hidden unit. -/
theorem v4_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (s : Fin 256) (b : Fin 4096) (e : Fin 100) :
    val_main_v4 (F := Ideal) x0 x2 x3 (ix3 s b e) = Cert.Pool.hid x0 x2 x3 s b e := by
  rw [val_main_v4_apply, val_main_v3_apply, val_main_v0_apply, val_main_v2_apply, val_main_v1_apply]
  have e1 : ∀ k : Fin 100, lidx_main_v0 (ix3 s b e) k = ix3 s b k := fun k =>
    funext fun a => by match a with | ⟨0, _⟩ => rfl | ⟨1, _⟩ => rfl | ⟨2, _⟩ => rfl
  have e2 : ∀ k : Fin 100, ridx_main_v0 (ix3 s b e) k = ix2 k e := fun k =>
    funext fun a => by match a with | ⟨0, _⟩ => rfl | ⟨1, _⟩ => rfl
  have e3 : idx_main_v1 (idx_main_v2 (ix3 s b e)) = ix2 (0 : Fin 1) e :=
    funext fun a => by match a with | ⟨0, _⟩ => rfl | ⟨1, _⟩ => rfl
  simp only [e1, e2, e3]
  rfl

/-- The score stage at (s, b) is the specification's score. -/
theorem v7_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal)) (s : Fin 256) (b : Fin 4096) :
    val_main_v7 (F := Ideal) x0 x2 x3 x4 (ix2 s b) = Cert.Pool.score x0 x2 x3 x4 s b := by
  rw [val_main_v7_apply, val_main_v6_apply, val_main_v5_apply]
  have e0 : idx_main_v7 (ix2 s b) = ix3 s b (0 : Fin 1) :=
    funext fun a => by
      match a with
      | ⟨0, _⟩ => exact Fin.ext (by have := s.isLt; have := b.isLt; show (s.val * 4096 + b.val) / 4096 = s.val; omega)
      | ⟨1, _⟩ => exact Fin.ext (by have := s.isLt; have := b.isLt; show (s.val * 4096 + b.val) / 1 % 4096 = b.val; omega)
      | ⟨2, _⟩ => rfl
  rw [e0]
  have e1 : ∀ k : Fin 100, lidx_main_v5 (ix3 s b (0 : Fin 1)) k = ix3 s b k := fun k =>
    funext fun a => by match a with | ⟨0, _⟩ => rfl | ⟨1, _⟩ => rfl | ⟨2, _⟩ => rfl
  have e2 : ∀ k : Fin 100, ridx_main_v5 (ix3 s b (0 : Fin 1)) k = ix2 k (0 : Fin 1) := fun k =>
    funext fun a => by match a with | ⟨0, _⟩ => rfl | ⟨1, _⟩ => rfl
  simp only [e1, e2, v4_at]
  rfl

/-- The reduced index `b` with the sequence position `k` put back is (k, b). -/
theorem lift_seq (h : S256x4096.Reduces [0] S4096) (b : Fin 4096) (k : Fin (S256x4096.size 0)) :
    h.lift (ix1 b) k = ix2 (⟨k.val, k.isLt⟩ : Fin 256) b := by
  funext c; apply Fin.ext
  fin_cases c <;> rfl

/-- The literal of the maximum's initial value is minus infinity. -/
theorem ofBits_neg_inf : Ideal.ofBits .f32 0xFF800000#32 = (⊥ : EReal) := by simp [Ideal.ofBits, Ideal.ieee]

/-- The maximum stage at `b` is a real number: the maximum of the 256 scores of row `b`. -/
theorem v10_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal)) (b : Fin 4096) :
    ∃ μ : ℝ, val_main_v10 (F := Ideal) x0 x2 x3 x4 (ix1 b) = (μ : EReal) := by
  obtain ⟨μ, hμ⟩ := OnlineSoftmax.max_fold_real (m := (⊥ : EReal)) (Or.inl rfl)
    (fun k : Fin 256 => Cert.Pool.scoreR x0 x2 x3 x4 k b)
  refine ⟨μ, ?_⟩
  have h : S256x4096.Reduces [0] S4096 := by decide
  rw [val_main_v10_apply, val_main_v9_apply, val_main_cst_0_apply]
  unfold val_main_v8
  rw [Host.reduce_eq_fold_single FloatOps.maximumf _ _ reducesTo_S256x4096_S4096_d0 h h_S_]
  have hfun : (val_main_v7 (F := Ideal) x0 x2 x3 x4 ∘ h.lift (ix1 b))
      = fun k : Fin 256 => ((Cert.Pool.scoreR x0 x2 x3 x4 k b : ℝ) : EReal) :=
    funext fun k => by
      show val_main_v7 (F := Ideal) x0 x2 x3 x4 (h.lift (ix1 b) k) = _
      rw [lift_seq h b k, v7_at, Cert.Pool.score_eq]
      rfl
  rw [hfun, val_main_cst_apply]
  show max (Ideal.ofBits .f32 0xFF800000#32)
    (Finset.fold max (Ideal.ofBits .f32 0xFF800000#32) (fun k : Fin 256 => ((Cert.Pool.scoreR x0 x2 x3 x4 k b : ℝ) : EReal)) Finset.univ) = (μ : EReal)
  rw [ofBits_neg_inf]
  exact hμ

/-- The exponential stage at (s, b): e^(score − maximum). -/
theorem v14_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal)) (s : Fin 256) (b : Fin 4096) :
    val_main_v14 (F := Ideal) x0 x2 x3 x4 (ix2 s b)
      = Ideal.exp (Cert.Pool.score x0 x2 x3 x4 s b - val_main_v10 (F := Ideal) x0 x2 x3 x4 (ix1 b)) := by
  rw [val_main_v14_apply, val_main_v13_apply, val_main_v12_apply, val_main_v11_apply, v7_at]
  have e1 : idx_main_v11 (idx_main_v12 (ix2 s b)) = ix1 b := funext fun a => by match a with | ⟨0, _⟩ => rfl
  rw [e1]
  rfl

/-- The normalizer stage at `b`: zero plus the sum of the exponentials over the sequence. -/
theorem v15_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal)) (b : Fin 4096) :
    val_main_v15 (F := Ideal) x0 x2 x3 x4 (ix1 b)
      = (0 : EReal) + ∑ k : Fin 256, val_main_v14 (F := Ideal) x0 x2 x3 x4 (ix2 k b) := by
  rw [val_main_v15_apply, val_main_cst_1_apply]
  have e1 : ∀ k : Fin 256, idx_main_v15 (ix1 b) k = ix2 k b := fun k =>
    funext fun a => by match a with | ⟨0, _⟩ => rfl | ⟨1, _⟩ => rfl
  simp only [e1]
  rw [Ideal.ofBits_def, Ideal.ofBits_zero_f32]

/-- The weight stage at (s, b): the exponential over the normalizer. -/
theorem v18_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal)) (s : Fin 256) (b : Fin 4096) :
    val_main_v18 (F := Ideal) x0 x2 x3 x4 (ix2 s b)
      = Ideal.div (val_main_v14 (F := Ideal) x0 x2 x3 x4 (ix2 s b)) (val_main_v15 (F := Ideal) x0 x2 x3 x4 (ix1 b)) := by
  rw [val_main_v18_apply, val_main_v17_apply, val_main_v16_apply]
  have e1 : idx_main_v16 (idx_main_v17 (ix2 s b)) = ix1 b := funext fun a => by match a with | ⟨0, _⟩ => rfl
  rw [e1]
  rfl

/-- The pooled stage at (b, q): zero plus the sum over the sequence of feature times weight. -/
theorem v22_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal)) (b : Fin 4096) (q : Fin 100) :
    val_main_v22 (F := Ideal) x0 x2 x3 x4 (ix2 b q)
      = (0 : EReal) + ∑ k : Fin 256, x0 (ix3 k b q) * val_main_v18 (F := Ideal) x0 x2 x3 x4 (ix2 k b) := by
  rw [val_main_v22_apply, val_main_cst_2_apply]
  have e1 : ∀ k : Fin 256, idx_main_v22 (ix2 b q) k = ix3 k b q := fun k =>
    funext fun a => by match a with | ⟨0, _⟩ => rfl | ⟨1, _⟩ => rfl | ⟨2, _⟩ => rfl
  have e2 : ∀ k : Fin 256, idx_main_v19 (idx_main_v20 (ix3 k b q)) = ix2 k b := fun k =>
    funext fun a => by match a with | ⟨0, _⟩ => rfl | ⟨1, _⟩ => rfl
  simp only [e1, val_main_v21_apply, val_main_v20_apply, val_main_v19_apply, e2]
  rw [Ideal.ofBits_def, Ideal.ofBits_zero_f32]
  rfl

/-- The result at (0, b, q) is the softmax-weighted average of the features of row `b`. -/
theorem val_at (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal))
    (hf : ∀ i, ∃ r : ℝ, x0 i = (r : EReal)) (z : Fin 1) (b : Fin 4096) (q : Fin 100) :
    val_main_v23 (F := Ideal) x0 x2 x3 x4 (ix3 z b q) = ((Cert.Pool.pooled x0 x2 x3 x4 b q : ℝ) : EReal) := by
  rw [val_main_v23_apply]
  have e0 : idx_main_v23 (ix3 z b q) = ix2 b q := funext fun a => by match a with | ⟨0, _⟩ => rfl | ⟨1, _⟩ => rfl
  rw [e0, v22_at]
  obtain ⟨μ, hμ⟩ := v10_at x0 x2 x3 x4 b
  simp only [v18_at, v15_at, v14_at, hμ, Cert.Pool.score_eq, Cert.Pool.feat_eq x0 hf]
  exact OnlineSoftmax.two_pass μ (fun s => Cert.Pool.scoreR x0 x2 x3 x4 s b) (fun s => Cert.Pool.feat x0 s b q)

theorem val_is_G (x0 : (⟨S256x4096x100, .f32⟩ : BufTy).Contents (Elt Ideal)) (x2 : (⟨S100x100, .f32⟩ : BufTy).Contents (Elt Ideal))
    (x3 : (⟨S1x100, .f32⟩ : BufTy).Contents (Elt Ideal)) (x4 : (⟨S100x1, .f32⟩ : BufTy).Contents (Elt Ideal))
    (hf : ∀ i, ∃ r : ℝ, x0 i = (r : EReal)) :
    Cert.ReferenceIdeal.Read.val_main_v23 (F := Ideal) x0 x2 x3 x4 = Cert.Pool.G x0 x2 x3 x4 := by
  funext j
  rw [eq_ix3 j]
  exact val_at x0 x2 x3 x4 hf (j 0) (j 1) (j 2)

end Cert.ReferenceIdeal.RefValue

end
-- ==== Proof.Finite.lean ====
/-
  Finiteness of the features.

  The precondition is the conjunction, over the five argument arrays, of "every entry's absolute value is below plus
  infinity". Its first conjunct, read at one entry x of the first array, says max x (−x) < +∞; an extended real with that
  property is neither −∞ nor +∞, hence a real number.
-/
import proofs.«108198_j24017457119662_2_alg».proof.Defs
import proofs.«108198_j24017457119662_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Proof.Finite

open Idealize.ShloMosaic Idealize.SL.Sem

/-- The scalar shape has one index. -/
instance : Subsingleton Cert.Pre_finite_inputs.S_.Idx := ⟨fun a b => funext fun d => d.elim0⟩

/-- The literal the absolute values are compared with is plus infinity. -/
theorem ofBits_pos_inf : Ideal.ofBits .f32 0x7F800000#32 = (⊤ : EReal) := by simp [Ideal.ofBits, Ideal.ieee]

/-- An extended real whose absolute value `max x (-x)` is below plus infinity is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- A one-bit word made from a truth value is one exactly when the value is true. -/
theorem ofBool_eq_one (b : Bool) : BitVec.ofBool b = 1#1 ↔ b = true := by cases b <;> decide

open Cert.Pre_finite_inputs in
/-- The predicate all ones makes every entry of its first argument a real number. -/
theorem fn_arg0 (a0 : FVec Ideal S256x4096x100 .f32) (a1 : FVec Ideal S2x4096x50 .f32) (a2 : FVec Ideal S100x100 .f32)
    (a3 : FVec Ideal S1x100 .f32) (a4 : FVec Ideal S100x1 .f32)
    (e : Cert.Pre_finite_inputs.fn (F := Ideal) a0 a1 a2 a3 a4 = fun _ => 1#1) (i : S256x4096x100.Idx) :
    ∃ r : ℝ, a0 i = (r : EReal) := by
  have e0 := congrFun e ValueIdx.ix0
  unfold Cert.Pre_finite_inputs.fn Cert.Pre_finite_inputs.fn_part1 at e0
  dsimp only at e0
  simp only [andi, IntOp.andi_eq_one] at e0
  obtain ⟨⟨⟨⟨h3, -⟩, -⟩, -⟩, -⟩ := e0
  have hi := Host.reduce_andi_all _ _ _ _ _ h3 i
  have hb : broadcastInDim S256x4096x100 ![] Facts.bcast_S_S256x4096x100 (constant (F := Ideal) S_ .f32 0x7F800000#32) i = (⊤ : EReal) := by
    rw [broadcastInDim_apply _ _ _ i ValueIdx.ix0 (fun a => a.elim0)]
    exact ofBits_pos_inf
  have hc : Ideal.cmp .olt (max (a0 i) (-(a0 i)))
      (broadcastInDim S256x4096x100 ![] Facts.bcast_S_S256x4096x100 (constant (F := Ideal) S_ .f32 0x7F800000#32) i) = 1#1 := hi
  rw [hb] at hc
  unfold Ideal.cmp at hc
  rw [ofBool_eq_one, decide_eq_true_eq] at hc
  exact real_of_abs_lt_top _ hc

/-- Under the precondition every feature the kernel is given is a real number. -/
theorem arg0_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S256x4096x100.Idx) :
    ∃ r : ℝ, m ((c.tc : Thread Cert.KernelIdeal.nD Cert.KernelIdeal.τ).loc Cert.KernelIdeal.main_arg0) i = (r : EReal) :=
  fn_arg0 _ _ _ _ _ (h c) i

end Cert.Proof.Finite

end
-- ==== Proof.lean ====
/-
  Attention pooling: a softmax over the sequence computed in one streaming pass equals the two-pass softmax.

  The kernel walks the 256 sequence positions of every batch row in sixteen chunks of sixteen, keeping a running
  maximum `m`, a normalizer `l = ∑ e^{σ - m}` and a weighted accumulator `a = ∑ e^{σ - m} · f`, rescaled by `e^{m - m'}`
  whenever the maximum moves, and finally writes `a / l`. The reference computes the scores of the whole sequence, their
  maximum `M`, the weights `e^{σ - M} / ∑ e^{σ - M}` and the weighted sum of the features. Over the extended reals, with
  finite features, both are the softmax-weighted average `(∑ₛ e^{σₛ} fₛ) / (∑ₛ e^{σₛ})`: a quotient that does not depend on
  the shift, be it the running maximum or the final one. The scores are hyperbolic tangents, hence real numbers whatever
  the inputs; finiteness is used for the features only, where a product with an infinity would not distribute.

  The three programs' frames: the two kernels' are the generated frame runs; the reference's is its generated run
  with the result dropped. The idealization rewrote no operation, so its conjunct is trivial.
-/
import proofs.«108198_j24017457119662_2_alg».proof.Defs
import proofs.«108198_j24017457119662_2_alg».proof.Proof.Gen.Kernel
import proofs.«108198_j24017457119662_2_alg».proof.Proof.Gen.Kernel.Skeleton
import proofs.«108198_j24017457119662_2_alg».proof.Proof.Gen.Kernel.Launch
import proofs.«108198_j24017457119662_2_alg».proof.Proof.Gen.Kernel.Points
import proofs.«108198_j24017457119662_2_alg».proof.Proof.Gen.Kernel.Frame
import proofs.«108198_j24017457119662_2_alg».proof.Proof.Gen.KernelIdeal
import proofs.«108198_j24017457119662_2_alg».proof.Proof.Gen.KernelIdeal.Skeleton
import proofs.«108198_j24017457119662_2_alg».proof.Proof.Gen.KernelIdeal.Launch
import proofs.«108198_j24017457119662_2_alg».proof.Proof.Gen.KernelIdeal.Points
import proofs.«108198_j24017457119662_2_alg».proof.Proof.Gen.KernelIdeal.Frame
import proofs.«108198_j24017457119662_2_alg».proof.Proof.Gen.ReferenceIdeal
import proofs.«108198_j24017457119662_2_alg».proof.Proof.Gen.Pre_finite_inputs
import proofs.«108198_j24017457119662_2_alg».proof.Proof.Gen.KernelIdeal.Value
import proofs.«108198_j24017457119662_2_alg».proof.Proof.Gen.ReferenceIdeal.Run
import proofs.«108198_j24017457119662_2_alg».proof.Proof.Gen.ReferenceIdeal.Read
import proofs.«108198_j24017457119662_2_alg».proof.Proof.Final
import proofs.«108198_j24017457119662_2_alg».proof.Proof.RefIsG
import proofs.«108198_j24017457119662_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal instance the kernel's result array ends at the specification of its argument arrays (finite
    features), the reference's at the same function of arguments that agree; the second result, an argument passed
    through, is unchanged on both sides. -/
theorem algebraic : Cert.algebraic_KernelIdeal_ReferenceIdeal := by
  intro m ρ m' ρ' hpre hagree
  have hf : ∀ (c : Dev Cert.KernelIdeal.nD) i, ∃ r : ℝ,
      m ((c.tc : Thread Cert.KernelIdeal.nD Cert.KernelIdeal.τ).loc Cert.KernelIdeal.main_arg0) i = (r : EReal) :=
    fun c i => Cert.Proof.Finite.arg0_real m hpre c i
  refine ⟨fun c => Cert.KernelIdeal.Final.result m c,
    fun c => m ((c.tc : Thread Cert.KernelIdeal.nD Cert.KernelIdeal.τ).loc Cert.KernelIdeal.main_arg1), ?_, ?_⟩
  · exact (θ_run Cert.KernelIdeal.defs _ _).mono
      (fun r h c => ⟨(h c).1, (h c).2.2.1, (h c).2.1, (h c).2.2.1, (h c).2.2.2.1, (h c).2.2.2.2.1, (h c).2.2.2.2.2⟩)
      (Cert.KernelIdeal.Final.run m ρ hf)
  · refine (θ_run Cert.ReferenceIdeal.defs _ _).mono (fun r h c => ⟨(h c).1.trans ?val, ?passed, (h c).2.2⟩)
      (Cert.ReferenceIdeal.Value.run (F := Ideal) m' ρ')
    case passed => exact (h c).2.1.trans (hagree c).2.1
    case val =>
      rw [Cert.ReferenceIdeal.Read.val_main_v23_eq,
        Cert.ReferenceIdeal.RefValue.val_is_G _ _ _ _ (by rw [(hagree c).1]; exact hf c),
        (hagree c).1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
